-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x4 : Shape := ⟨2, ![262144, 4]⟩
abbrev S262144 : Shape := ⟨1, ![262144]⟩
abbrev S27x65536x2 : Shape := ⟨3, ![27, 65536, 2]⟩
abbrev S27x64x64 : Shape := ⟨3, ![27, 64, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S262144x64 .f32) (main_arg1 : IVec S262144x4 32) (main_arg2 : IVec S262144 32) (main_arg3 : IVec S27x65536x2 32) (main_arg4 : FVec F S27x64x64 .f32) (main_arg5 : FVec F S64 .f32) (main_arg6 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S27x64x64 .f32 := Host.absf main_arg4
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S262144x64 : Shape := ⟨2, ![262144, 64]⟩
abbrev S262144x4 : Shape := ⟨2, ![262144, 4]⟩
abbrev S262144 : Shape := ⟨1, ![262144]⟩
abbrev S27x65536x2 : Shape := ⟨3, ![27, 65536, 2]⟩
abbrev S27x64x64 : Shape := ⟨3, ![27, 64, 64]⟩
abbrev S64 : Shape := ⟨1, ![64]⟩
abbrev S27x65536x1 : Shape := ⟨3, ![27, 65536, 1]⟩
abbrev S27x65536 : Shape := ⟨2, ![27, 65536]⟩
abbrev S_ : Shape := ⟨0, ![]⟩
abbrev S27x65536x64 : Shape := ⟨3, ![27, 65536, 64]⟩
abbrev S1x8192x64 : Shape := ⟨3, ![1, 8192, 64]⟩
abbrev S1x64x64 : Shape := ⟨3, ![1, 64, 64]⟩
abbrev S8192x64 : Shape := ⟨2, ![8192, 64]⟩
abbrev S64x64 : Shape := ⟨2, ![64, 64]⟩
abbrev S1769472x64 : Shape := ⟨2, ![1769472, 64]⟩
abbrev S1769472 : Shape := ⟨1, ![1769472]⟩
abbrev S1769472x1 : Shape := ⟨2, ![1769472, 1]⟩
abbrev S2x64 : Shape := ⟨2, ![2, 64]⟩
abbrev S1x64 : Shape := ⟨2, ![1, 64]⟩

abbrev nBuf : Space → Nat
  | .hbm => 33
  | .vmem => 16
  | .smem => 0
  | _ => 0

abbrev bufTy : (tb : Table) → Fin (tcTables nBuf tb) → BufTy
  | .hbm, ⟨0, _⟩ => ⟨S262144x64, .f32⟩
  | .hbm, ⟨1, _⟩ => ⟨S262144x4, .i32⟩
  | .hbm, ⟨2, _⟩ => ⟨S262144, .i32⟩
  | .hbm, ⟨3, _⟩ => ⟨S27x65536x2, .i32⟩
  | .hbm, ⟨4, _⟩ => ⟨S27x64x64, .f32⟩
  | .hbm, ⟨5, _⟩ => ⟨S64, .f32⟩
  | .hbm, ⟨6, _⟩ => ⟨S64, .f32⟩
  | .hbm, ⟨7, _⟩ => ⟨S27x65536x1, .i32⟩
  | .hbm, ⟨8, _⟩ => ⟨S27x65536, .i32⟩
  | .hbm, ⟨9, _⟩ => ⟨S27x65536x1, .i32⟩
  | .hbm, ⟨10, _⟩ => ⟨S27x65536, .i32⟩
  | .hbm, ⟨11, _⟩ => ⟨S_, .i32⟩
  | .hbm, ⟨12, _⟩ => ⟨S27x65536, .i32⟩
  | .hbm, ⟨13, _⟩ => ⟨S27x65536, .i1⟩
  | .hbm, ⟨14, _⟩ => ⟨S_, .i32⟩
  | .hbm, ⟨15, _⟩ => ⟨S27x65536, .i32⟩
  | .hbm, ⟨16, _⟩ => ⟨S27x65536, .i32⟩
  | .hbm, ⟨17, _⟩ => ⟨S27x65536, .i32⟩
  | .hbm, ⟨18, _⟩ => ⟨S27x65536x1, .i32⟩
  | .hbm, ⟨19, _⟩ => ⟨S27x65536x64, .f32⟩
  | .hbm, ⟨20, _⟩ => ⟨S27x65536x64, .bf16⟩
  | .hbm, ⟨21, _⟩ => ⟨S27x64x64, .bf16⟩
  | .hbm, ⟨22, _⟩ => ⟨S27x65536x64, .f32⟩
  | .hbm, ⟨23, _⟩ => ⟨S1769472x64, .f32⟩
  | .hbm, ⟨24, _⟩ => ⟨S1769472, .i32⟩
  | .hbm, ⟨25, _⟩ => ⟨S_, .f32⟩
  | .hbm, ⟨26, _⟩ => ⟨S262144x64, .f32⟩
  | .hbm, ⟨27, _⟩ => ⟨S1769472x1, .i32⟩
  | .hbm, ⟨28, _⟩ => ⟨S262144x64, .f32⟩
  | .hbm, ⟨29, _⟩ => ⟨S2x64, .f32⟩
  | .hbm, ⟨30, _⟩ => ⟨S1x64, .f32⟩
  | .hbm, ⟨31, _⟩ => ⟨S1x64, .f32⟩
  | .hbm, ⟨32, _⟩ => ⟨S262144x64, .f32⟩
  | .local _ .vmem, ⟨0, _⟩ => ⟨S1x8192x64, .bf16⟩
  | .local _ .vmem, ⟨1, _⟩ => ⟨S1x8192x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x8192x64, .f32⟩
  | .local _ .vmem, ⟨5, _⟩ => ⟨S1x8192x64, .f32⟩
  | .local _ .vmem, ⟨6, _⟩ => ⟨S8192x64, .f32⟩
  | .local _ .vmem, ⟨7, _⟩ => ⟨S8192x64, .f32⟩
  | .local _ .vmem, ⟨8, _⟩ => ⟨S2x64, .f32⟩
  | .local _ .vmem, ⟨9, _⟩ => ⟨S8192x64, .f32⟩
  | .local _ .vmem, ⟨10, _⟩ => ⟨S8192x64, .f32⟩
  | .local _ .vmem, ⟨11, _⟩ => ⟨S2x64, .f32⟩
  | .local _ .vmem, ⟨12, _⟩ => ⟨S1x64, .f32⟩
  | .local _ .vmem, ⟨13, _⟩ => ⟨S1x64, .f32⟩
  | .local _ .vmem, ⟨14, _⟩ => ⟨S8192x64, .f32⟩
  | .local _ .vmem, ⟨15, _⟩ => ⟨S8192x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8192x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S27x65536x2_S27x65536x1_0_0_0 : S27x65536x2.Slices ![0, 0, 0] S27x65536x1
  shapeCasts_S27x65536x1_S27x65536 : S27x65536x1.ShapeCasts S27x65536
  slices_S27x65536x2_S27x65536x1_0_0_1 : S27x65536x2.Slices ![0, 0, 1] S27x65536x1
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  bitsLt_bf16_f32 : FTy.bits .bf16 < FTy.bits .f32
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S8192x64_S1x8192x64 : S8192x64.ShapeCasts S1x8192x64
  shapeCasts_S27x65536x64_S1769472x64 : S27x65536x64.ShapeCasts S1769472x64
  shapeCasts_S27x65536_S1769472 : S27x65536.ShapeCasts S1769472
  bcast_S_S262144x64 : S_.BroadcastsInDim S262144x64 (![] : Fin 0 → Fin S262144x64.rank)
  bcast_S1769472_S1769472x1_0 : S1769472.BroadcastsInDim S1769472x1 (![0] : Fin 1 → Fin S1769472x1.rank)
  inb_S2x64_S2x64_0_0 : ∀ a, (![0, 0] : Fin 2 → Nat) a + S2x64.size a ≤ S2x64.size a
  h_S2x64 : 0 < S2x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S64 : S8192x64.Reduces [0] S64
  shapeCasts_S64_S1x64 : S64.ShapeCasts S1x64
  inb_S2x64_S1x64_0_0 : ∀ a, (![0, 0] : Fin 2 → Nat) a + S1x64.size a ≤ S2x64.size a
  h_S1x64 : 0 < S1x64.numel
  shapeCasts_S1x64_S1x64 : S1x64.ShapeCasts S1x64
  inb_S2x64_S1x64_1_0 : ∀ a, (![1, 0] : Fin 2 → Nat) a + S1x64.size a ≤ S2x64.size a
  inb_S1x64_S1x64_0_0 : ∀ a, (![0, 0] : Fin 2 → Nat) a + S1x64.size a ≤ S1x64.size a
  broadcasts_S1x64_S8192x64 : S1x64.Broadcasts S8192x64
  gather_S262144x64_S27x65536x1_S27x65536x64_2_0_n_n_0_2_164_wf : GatherDims.WF S262144x64 S27x65536x1 S27x65536x64 [2] [0] [] [0] [] 2 ![1, 64]
  dot_S8192x64_S64x64_S8192x64_1_0_0_1_n_n_wf : DotDims.WF S8192x64 S64x64 S8192x64 [1] [0] [0] [1] [] []
  scatter_S262144x64_S1769472x1_S1769472x64_1_0_0_1_wf : ScatterDims.WF S262144x64 S1769472x1 S1769472x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S27x65536x64.size a
  hwx0_0 : ∀ i : grid0.Coords, EltTy.bits .bf16 = 32 ∨ (Rect.block (s := S27x65536x64) S1x8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S27x65536x64.size a
  hwx0_2 : ∀ i : grid0.Coords, EltTy.bits .f32 = 32 ∨ (Rect.block (s := S27x65536x64) S1x8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S262144x64.size a
  hwx1_0 : ∀ i : grid1.Coords, EltTy.bits .f32 = 32 ∨ (Rect.block (s := S262144x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S262144x64.size a
  hwx2_0 : ∀ i : grid2.Coords, EltTy.bits .f32 = 32 ∨ (Rect.block (s := S262144x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x64.size a ≤ S2x64.size a
  hwx2_1 : ∀ i : grid2.Coords, EltTy.bits .f32 = 32 ∨ (Rect.block (s := S2x64) S2x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8192x64.size a ≤ S262144x64.size a
  hwx2_4 : ∀ i : grid2.Coords, EltTy.bits .f32 = 32 ∨ (Rect.block (s := S262144x64) S8192x64.size (cc2_transform_4 i) (hinb2_4 i)).WholeWords (EltTy.packing .f32)

variable [Facts₀]

def gather_S262144x64_S27x65536x1_S27x65536x64_2_0_n_n_0_2_164 : GatherDims S262144x64 S27x65536x1 S27x65536x64 where
  offsetDims := [2]
  collapsedSliceDims := [0]
  operandBatchingDims := []
  startIndicesBatchingDims := []
  startIndexMap := [0]
  indexVectorDim := 2
  sliceSizes := ![1, 64]
  wf := gather_S262144x64_S27x65536x1_S27x65536x64_2_0_n_n_0_2_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S262144x64_S1769472x1_S1769472x64_1_0_0_1 : ScatterDims S262144x64 S1769472x1 S1769472x64 where
  updateWindowDims := [1]
  insertedWindowDims := [0]
  scatterDimsToOperandDims := [0]
  indexVectorDim := 1
  wf := scatter_S262144x64_S1769472x1_S1769472x64_1_0_0_1_wf

abbrev win0_0 : Pipeline.Window sig grid0 :=
  Pipeline.Window.ofSpec (Memref.whole main_v11) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2x64.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v18) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S8192x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S262144x64 : Shape := ⟨2, ![262144, 64]⟩
abbrev S262144x4 : Shape := ⟨2, ![262144, 4]⟩
abbrev S262144 : Shape := ⟨1, ![262144]⟩
abbrev S27x65536x2 : Shape := ⟨3, ![27, 65536, 2]⟩
abbrev S27x64x64 : Shape := ⟨3, ![27, 64, 64]⟩
abbrev S64 : Shape := ⟨1, ![64]⟩
abbrev S27x65536x1 : Shape := ⟨3, ![27, 65536, 1]⟩
abbrev S27x65536 : Shape := ⟨2, ![27, 65536]⟩
abbrev S_ : Shape := ⟨0, ![]⟩
abbrev S27x65536x64 : Shape := ⟨3, ![27, 65536, 64]⟩
abbrev S1769472x64 : Shape := ⟨2, ![1769472, 64]⟩
abbrev S1769472 : Shape := ⟨1, ![1769472]⟩
abbrev S1769472x1 : Shape := ⟨2, ![1769472, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x4, .i32⟩
  | .hbm, ⟨2, _⟩ => ⟨S262144, .i32⟩
  | .hbm, ⟨3, _⟩ => ⟨S27x65536x2, .i32⟩
  | .hbm, ⟨4, _⟩ => ⟨S27x64x64, .f32⟩
  | .hbm, ⟨5, _⟩ => ⟨S64, .f32⟩
  | .hbm, ⟨6, _⟩ => ⟨S64, .f32⟩
  | .hbm, ⟨7, _⟩ => ⟨S27x65536x1, .i32⟩
  | .hbm, ⟨8, _⟩ => ⟨S27x65536, .i32⟩
  | .hbm, ⟨9, _⟩ => ⟨S27x65536x1, .i32⟩
  | .hbm, ⟨10, _⟩ => ⟨S27x65536, .i32⟩
  | .hbm, ⟨11, _⟩ => ⟨S_, .i32⟩
  | .hbm, ⟨12, _⟩ => ⟨S27x65536, .i32⟩
  | .hbm, ⟨13, _⟩ => ⟨S27x65536, .i1⟩
  | .hbm, ⟨14, _⟩ => ⟨S_, .i32⟩
  | .hbm, ⟨15, _⟩ => ⟨S27x65536, .i32⟩
  | .hbm, ⟨16, _⟩ => ⟨S27x65536, .i32⟩
  | .hbm, ⟨17, _⟩ => ⟨S27x65536, .i32⟩
  | .hbm, ⟨18, _⟩ => ⟨S27x65536x1, .i32⟩
  | .hbm, ⟨19, _⟩ => ⟨S27x65536x64, .f32⟩
  | .hbm, ⟨20, _⟩ => ⟨S27x65536x64, .f32⟩
  | .hbm, ⟨21, _⟩ => ⟨S1769472x64, .f32⟩
  | .hbm, ⟨22, _⟩ => ⟨S1769472, .i32⟩
  | .hbm, ⟨23, _⟩ => ⟨S_, .f32⟩
  | .hbm, ⟨24, _⟩ => ⟨S262144x64, .f32⟩
  | .hbm, ⟨25, _⟩ => ⟨S1769472x1, .i32⟩
  | .hbm, ⟨26, _⟩ => ⟨S262144x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .i32⟩
  | .hbm, ⟨33, _⟩ => ⟨S_, .f32⟩
  | .hbm, ⟨34, _⟩ => ⟨S64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S262144x64, .f32⟩
  | .hbm, ⟨57, _⟩ => ⟨S262144x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S262144x64, .f32⟩
  | .hbm, ⟨64, _⟩ => ⟨S262144x64, .f32⟩
  | .hbm, ⟨65, _⟩ => ⟨S1x64, .f32⟩
  | .hbm, ⟨66, _⟩ => ⟨S262144x64, .f32⟩
  | .hbm, ⟨67, _⟩ => ⟨S262144x64, .f32⟩
  | .hbm, ⟨68, _⟩ => ⟨S1x64, .f32⟩
  | .hbm, ⟨69, _⟩ => ⟨S262144x64, .f32⟩
  | .hbm, ⟨70, _⟩ => ⟨S262144x64, .f32⟩
  | .hbm, ⟨71, _⟩ => ⟨S_, .f32⟩
  | .hbm, ⟨72, _⟩ => ⟨S262144x64, .f32⟩
  | .hbm, ⟨73, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call1_cst : Ref sig .tc := ⟨.hbm, 71, rfl⟩
abbrev main_call1_v0 : Ref sig .tc := ⟨.hbm, 72, rfl⟩
abbrev main_v36 : Ref sig .tc := ⟨.hbm, 73, rfl⟩

abbrev nD : Nat := 1
abbrev τ : Topo := Topo.v7x

variable {F : FTy → Type} [FloatOps F]

class Facts₀ : Prop where
  slices_S27x65536x2_S27x65536x1_0_0_0 : S27x65536x2.Slices ![0, 0, 0] S27x65536x1
  shapeCasts_S27x65536x1_S27x65536 : S27x65536x1.ShapeCasts S27x65536
  slices_S27x65536x2_S27x65536x1_0_0_1 : S27x65536x2.Slices ![0, 0, 1] S27x65536x1
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  shapeCasts_S27x65536x64_S1769472x64 : S27x65536x64.ShapeCasts S1769472x64
  shapeCasts_S27x65536_S1769472 : S27x65536.ShapeCasts S1769472
  bcast_S_S262144x64 : S_.BroadcastsInDim S262144x64 (![] : Fin 0 → Fin S262144x64.rank)
  bcast_S1769472_S1769472x1_0 : S1769472.BroadcastsInDim S1769472x1 (![0] : Fin 1 → Fin S1769472x1.rank)
  reducesTo_S262144x64_S64_d0 : S262144x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S262144x64_0_1 : S1x64.BroadcastsInDim S262144x64 (![0, 1] : Fin 2 → Fin S262144x64.rank)
  gather_S262144x64_S27x65536x1_S27x65536x64_2_0_n_n_0_2_164_wf : GatherDims.WF S262144x64 S27x65536x1 S27x65536x64 [2] [0] [] [0] [] 2 ![1, 64]
  dot_S27x65536x64_S27x64x64_S27x65536x64_2_1_1_2_0_0_wf : DotDims.WF S27x65536x64 S27x64x64 S27x65536x64 [2] [1] [1] [2] [0] [0]
  scatter_S262144x64_S1769472x1_S1769472x64_1_0_0_1_wf : ScatterDims.WF S262144x64 S1769472x1 S1769472x64 [1] [0] [0] 1

variable [Facts₀]

def gather_S262144x64_S27x65536x1_S27x65536x64_2_0_n_n_0_2_164 : GatherDims S262144x64 S27x65536x1 S27x65536x64 where
  offsetDims := [2]
  collapsedSliceDims := [0]
  operandBatchingDims := []
  startIndicesBatchingDims := []
  startIndexMap := [0]
  indexVectorDim := 2
  sliceSizes := ![1, 64]
  wf := gather_S262144x64_S27x65536x1_S27x65536x64_2_0_n_n_0_2_164_wf
def dot_S27x65536x64_S27x64x64_S27x65536x64_2_1_1_2_0_0 : DotDims S27x65536x64 S27x64x64 S27x65536x64 where
  lhsContracting := [2]
  rhsContracting := [1]
  lhsNonContracting := [1]
  rhsNonContracting := [2]
  lhsBatch := [0]
  rhsBatch := [0]
  wf := dot_S27x65536x64_S27x64x64_S27x65536x64_2_1_1_2_0_0_wf
def scatter_S262144x64_S1769472x1_S1769472x64_1_0_0_1 : ScatterDims S262144x64 S1769472x1 S1769472x64 where
  updateWindowDims := [1]
  insertedWindowDims := [0]
  scatterDimsToOperandDims := [0]
  indexVectorDim := 1
  wf := scatter_S262144x64_S1769472x1_S1769472x64_1_0_0_1_wf

class Facts : Prop extends Facts₀ where

variable [Facts]
-- ==== Proof.RunValue.lean ====
/-
  The kernel program's run with its result named: every weakly fair execution of the three pipelines among the host
  operations terminates with the result array at the contents the last pipeline's write-backs leave, and the seven
  argument arrays as launched.  The contents at each boundary are a fold from the launch memory: a stretch of host
  operations applies them in order, a pipeline replaces its arrays by what its blocks' write-backs leave.
-/
import proofs.«121788_j77799037600003_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read against the last boundary's contents. -/
theorem run : θ_run defs (onTc (τ := τ) (main (F := F))) ⟨m, fun _ => 0, ρ⟩ (fun r => ∀ c : Dev nD,
      r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v22 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.KernelChain.lean ====
/-
  The kernel program's host operations between its pipelines, composed.  The gathered rows and the weights enter the
  first pipeline rounded (a change of format); its products are flattened and scattered by the second index column
  onto a zero array; that array enters the second and the third pipeline unchanged, beside the statistics the second
  leaves and the scale and shift vectors reshaped to one row.
-/
import proofs.«121788_j77799037600003_1_alg».proof.Proof.Gen.KernelIdeal.Frame
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen

variable {F : FTy → Type} [FloatOps F]

/-- Column c of the index pairs, as a 27 × 65536 array. -/
def kcol (off : Fin 3 → Nat) (h : S27x65536x2.Slices off S27x65536x1) (kmap : IVec S27x65536x2 32) : IVec S27x65536 32 :=
  shapeCast S27x65536 (extractStridedSlice S27x65536x1 off kmap h) shapeCasts_S27x65536x1_S27x65536

/-- The gather's start indices: column 0, a negative index counted from the end. -/
def inIdx (kmap : IVec S27x65536x2 32) : IVec S27x65536x1 32 :=
  broadcastInDim S27x65536x1 ![0, 1] bcast_S27x65536_S27x65536x1_0_1
    (select (cmpi .slt (kcol ![0, 0, 0] slices_S27x65536x2_S27x65536x1_0_0_0 kmap) (broadcastInDim S27x65536 ![] bcast_S_S27x65536 (constantI S_ 32 0#32)))
      (addi (kcol ![0, 0, 0] slices_S27x65536x2_S27x65536x1_0_0_0 kmap) (broadcastInDim S27x65536 ![] bcast_S_S27x65536 (constantI S_ 32 262144#32)))
      (kcol ![0, 0, 0] slices_S27x65536x2_S27x65536x1_0_0_0 kmap))

/-- The scatter's indices: column 1, flattened. -/
def outIdx (kmap : IVec S27x65536x2 32) : IVec S1769472x1 32 :=
  broadcastInDim S1769472x1 ![0] bcast_S1769472_S1769472x1_0
    (shapeCast S1769472 (kcol ![0, 0, 1] slices_S27x65536x2_S27x65536x1_0_0_1 kmap) shapeCasts_S27x65536_S1769472)

/-- The rows the first index column names. -/
def gathered (x : FVec F S262144x64 .f32) (kmap : IVec S27x65536x2 32) : FVec F S27x65536x64 .f32 :=
  Host.gather gather_S262144x64_S27x65536x1_S27x65536x64_2_0_n_n_0_2_164 x (inIdx kmap)

/-- The products, flattened and added onto a zero array at the rows the second index column names. -/
def scattered (kmap : IVec S27x65536x2 32) (prod : FVec F S27x65536x64 .f32) : FVec F S262144x64 .f32 :=
  Host.scatterAdd scatter_S262144x64_S1769472x1_S1769472x64_1_0_0_1
    (broadcastInDim S262144x64 ![] bcast_S_S262144x64 (constant S_ .f32 0x00000000#32))
    (outIdx kmap) (shapeCast S1769472x64 prod shapeCasts_S27x65536x64_S1769472x64)

variable (m : (ℓ : Loc nD τ sig) → Buf (Elt F) ℓ) (ρ : Dev nD → PrngReg)

/-- The first pipeline's left operand: the gathered rows, rounded. -/
theorem W1_v11 (c : Dev nD) : W1 m ρ c (Proc.devRef .tc main_v11)
    = truncf .bf16 (gathered (m ((c : Thread nD τ).loc main_arg0)) (m ((c : Thread nD τ).loc main_arg3))) bitsLt_bf16_f32 := by
  show StableHlo.after hostOps0 (W0 m ρ c) (Proc.devRef .tc main_v11) = _
  after_results
  rfl

/-- Its right operand: the weights, rounded. -/
theorem W1_v12 (c : Dev nD) : W1 m ρ c (Proc.devRef .tc main_v12)
    = truncf .bf16 (m ((c : Thread nD τ).loc main_arg4)) bitsLt_bf16_f32 := by
  show StableHlo.after hostOps0 (W0 m ρ c) (Proc.devRef .tc main_v12) = _
  after_results

/-- The second index column after the first stretch. -/
theorem W1_v3 (c : Dev nD) : W1 m ρ c (Proc.devRef .tc main_v3)
    = kcol ![0, 0, 1] slices_S27x65536x2_S27x65536x1_0_0_1 (m ((c : Thread nD τ).loc main_arg3)) := by
  show StableHlo.after hostOps0 (W0 m ρ c) (Proc.devRef .tc main_v3) = _
  after_results
  rfl

/-- What the second and third pipelines read: the first pipeline's array scattered. -/
theorem W3_v18 (c : Dev nD) : W3 m ρ c (Proc.devRef .tc main_v18)
    = scattered (m ((c : Thread nD τ).loc main_arg3)) ((dat0 (V1 m ρ) c).arrAt 2 cfg0.N) := by
  show StableHlo.after hostOps1 (W2 m ρ c) (Proc.devRef .tc main_v18) = _
  after_results
  rw [W2_of_ne m ρ c main_v3 (by decide), W1_v3 m ρ c, show W2 m ρ c (Proc.devRef .tc main_v13) = _ from W2_arr m ρ c 2]
  rfl

/-- The scattered array is what the third pipeline finds too. -/
theorem W5_v18 (c : Dev nD) : W5 m ρ c (Proc.devRef .tc main_v18) = W3 m ρ c (Proc.devRef .tc main_v18) :=
  calc W5 m ρ c (Proc.devRef .tc main_v18)
    _ = W4 m ρ c (Proc.devRef .tc main_v18) := StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = (dat1 (V3 m ρ) c).arrAt 0 cfg1.N := W4_arr m ρ c 0
    _ = (dat1 (V3 m ρ) c).A 0 := Dat.arrAt_in _ 0 rfl _
    _ = W3 m ρ c (Proc.devRef .tc main_v18) := A_eq1 (V3 m ρ) c 0

/-- The statistics array the third pipeline finds is what the second leaves. -/
theorem W5_v19 (c : Dev nD) : W5 m ρ c (Proc.devRef .tc main_v19) = (dat1 (V3 m ρ) c).arrAt 1 cfg1.N :=
  calc W5 m ρ c (Proc.devRef .tc main_v19)
    _ = W4 m ρ c (Proc.devRef .tc main_v19) := StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = (dat1 (V3 m ρ) c).arrAt 1 cfg1.N := W4_arr m ρ c 1

/-- An argument vector read at the last stretch is as launched. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg5) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg6) := rfl

/-- The scale vector as a one-row matrix. -/
theorem W5_v20 (c : Dev nD) : W5 m ρ c (Proc.devRef .tc main_v20)
    = shapeCast S1x64 (m ((c : Thread nD τ).loc main_arg5)) shapeCasts_S64_S1x64 := by
  show StableHlo.after hostOps2 (W4 m ρ c) (Proc.devRef .tc main_v20) = _
  after_results
  rw [W4_arg5 m ρ c]
  rfl

/-- The shift vector as a one-row matrix. -/
theorem W5_v21 (c : Dev nD) : W5 m ρ c (Proc.devRef .tc main_v21)
    = shapeCast S1x64 (m ((c : Thread nD τ).loc main_arg6)) shapeCasts_S64_S1x64 := by
  show StableHlo.after hostOps2 (W4 m ρ c) (Proc.devRef .tc main_v21) = _
  after_results
  rw [W4_arg6 m ρ c]
  rfl

end Cert.KernelIdeal.Chain

end
-- ==== Proof.NormValue.lean ====
/-
  The last pipeline, entry by entry.  Each of its 32 points normalizes one block of 8192 rows: from an entry x, its
  column's sum s0 and sum of squares s1 (the two rows of the statistics array), the column's scale g and shift b it
  stores  max(((x - s0/n) * rsqrt(s1/n - (s0/n)^2 + eps)) * g + b, 0).  The blocks tile the array, so after the
  last write-back the result array holds that function of the four arrays the pipeline found.
-/
import proofs.«121788_j77799037600003_1_alg».proof.Proof.Gen.KernelIdeal.Frame
import Idealize.ShloMosaic.Lib.Pipeline.Value
import Idealize.ShloMosaic.Lib.ValueIdx

set_option maxRecDepth 16384

noncomputable section

namespace Cert.KernelIdeal.NormValue

open Idealize.ShloMosaic Idealize.ShloMosaic.TcCoe Idealize.SL.Sem Idealize.ShloMosaic.ValueIdx
open Idealize.ShloMosaic.Pipeline (Dat)
open Cert.KernelIdeal Cert.KernelIdeal.Gen

/-- One entry of the result from the entry, its column's two statistics, scale and shift. -/
def normElt (x s0 s1 g b : EReal) : EReal :=
  max ((x - Ideal.div s0 (Ideal.ofBits .f32 0x48800000#32))
        * Ideal.rsqrt (Ideal.div s1 (Ideal.ofBits .f32 0x48800000#32)
            - Ideal.div s0 (Ideal.ofBits .f32 0x48800000#32) * Ideal.div s0 (Ideal.ofBits .f32 0x48800000#32)
            + Ideal.ofBits .f32 0x3727C5AC#32)
        * g + b) (Ideal.ofBits .f32 0x00000000#32)

/-- The result array as one function of the four arrays the pipeline reads. -/
def normG (x : S262144x64.Idx → EReal) (s : S2x64.Idx → EReal) (g b : S1x64.Idx → EReal) : S262144x64.Idx → EReal :=
  fun i => normElt (x i) (s (ix2 0 (i 1))) (s (ix2 1 (i 1))) (g (ix2 0 (i 1))) (b (ix2 0 (i 1)))

/-- A one-row vector broadcast down 8192 rows reads its column's entry. -/
theorem bcast_row (v : Vec Ideal S1x64 .f32) (p : Fin 8192) (d : Fin 64) :
    broadcastTo S8192x64 v broadcasts_S1x64_S8192x64 (ix2 p d) = v (ix2 0 d) :=
  broadcastTo_apply v _ (ix2 p d) (ix2 0 d) (fun a => by
    match a with
    | ⟨0, _⟩ => rfl
    | ⟨1, _⟩ => rfl)

/-- The body's stored value at row p, column d of its block. -/
theorem pay_apply (v0 : Vec Ideal S8192x64 .f32) (v2 v4 v15 v17 : Vec Ideal S1x64 .f32) (p : Fin 8192) (d : Fin 64) :
    k2_pay1 (F := Ideal) v0 v2 v4 v15 v17 (ix2 p d)
      = normElt (v0 (ix2 p d)) (v2 (ix2 0 d)) (v4 (ix2 0 d)) (v15 (ix2 0 d)) (v17 (ix2 0 d)) := by
  unfold k2_pay1
  simp only [shapeCast_self]
  show max (((v0 (ix2 p d) - broadcastTo S8192x64 _ broadcasts_S1x64_S8192x64 (ix2 p d))
      * broadcastTo S8192x64 _ broadcasts_S1x64_S8192x64 (ix2 p d))
      * broadcastTo S8192x64 v15 broadcasts_S1x64_S8192x64 (ix2 p d)
      + broadcastTo S8192x64 v17 broadcasts_S1x64_S8192x64 (ix2 p d)) _ = _
  rw [bcast_row, bcast_row, bcast_row, bcast_row]
  rfl

theorem hz2 : (![0, 0] : Fin 2 → Nat) = fun _ => 0 := funext fun a => by fin_cases a <;> rfl

/-- The printed index maps over the grid: at point t the row-block windows sit at block row t, the others at (0, 0). -/
theorem idx_facts : ∀ t : Fin cfg2.N, win2_0.index t (0 : Fin 2) = t.val ∧ win2_0.index t (1 : Fin 2) = 0
    ∧ win2_4.index t (0 : Fin 2) = t.val ∧ win2_4.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of `normG` of the arrays the pipeline found. -/
theorem flushed_eq (c : Dev nD) (t : Fin cfg2.N) :
    (dat2 (F := Ideal) V c).flushed 4 t = ((cfg2.win 4).blk t).view.read (Elt Ideal)
      (normG (V c main_v18) (V c main_v19) (V c main_v20) (V c main_v21)) := by
  show (cfg2.win 4).cut (grid2.coords t) ((dat2 V c).after 4 t) = _
  rw [after2_4]
  unfold out2_4
  rw [View.canon_unit_zero hz2]
  simp only [View.ld_unit_zero (S := S8192x64) hz2, View.ld_unit_zero (S := S1x64) hz2]
  obtain ⟨e0, e1, e2, e3, e4, e5, e6, e7, e8, e9⟩ := idx_facts t
  have hN : t.val < 32 := lt_of_lt_of_eq t.isLt (show cfg2.N = 32 from N_2)
  funext j
  obtain ⟨p, d, rfl⟩ : ∃ (p : Fin 8192) (d : Fin 64), j = ix2 p d := ⟨j 0, j 1, eq_ix2 j⟩
  refine (pay_apply _ _ _ _ _ p d).trans ?_
  have h0 : ((cfg2.win 0).blk t).view.emb (ix2 p d) = (ix2 ⟨8192 * t.val + p.val, by omega⟩ d : S262144x64.Idx) := by
    funext a; apply Fin.ext
    match a with
    | ⟨0, _⟩ => show win2_0.index t (0 : Fin 2) * 8192 + 1 * p.val = 8192 * t.val + p.val; omega
    | ⟨1, _⟩ => show win2_0.index t (1 : Fin 2) * 64 + 1 * d.val = d.val; omega
  have h4 : ((cfg2.win 4).blk t).view.emb (ix2 p d) = (ix2 ⟨8192 * t.val + p.val, by omega⟩ d : S262144x64.Idx) := by
    funext a; apply Fin.ext
    match a with
    | ⟨0, _⟩ => show win2_4.index t (0 : Fin 2) * 8192 + 1 * p.val = 8192 * t.val + p.val; omega
    | ⟨1, _⟩ => show win2_4.index t (1 : Fin 2) * 64 + 1 * d.val = d.val; omega
  have h1 : ((cfg2.win 1).blk t).view.emb (r2_1.emb (ix2 0 d)) = (ix2 0 d : S2x64.Idx) := by
    funext a; apply Fin.ext
    match a with
    | ⟨0, _⟩ => show win2_1.index t (0 : Fin 2) * 2 + 1 * (0 + 1 * 0) = 0; omega
    | ⟨1, _⟩ => show win2_1.index t (1 : Fin 2) * 64 + 1 * (0 + 1 * d.val) = d.val; omega
  have h1' : ((cfg2.win 1).blk t).view.emb (r2_2.emb (ix2 0 d)) = (ix2 1 d : S2x64.Idx) := by
    funext a; apply Fin.ext
    match a with
    | ⟨0, _⟩ => show win2_1.index t (0 : Fin 2) * 2 + 1 * (1 + 1 * 0) = 1; omega
    | ⟨1, _⟩ => show win2_1.index t (1 : Fin 2) * 64 + 1 * (0 + 1 * d.val) = d.val; omega
  have h2 : ((cfg2.win 2).blk t).view.emb (ix2 0 d) = (ix2 0 d : S1x64.Idx) := by
    funext a; apply Fin.ext
    match a with
    | ⟨0, _⟩ => show win2_2.index t (0 : Fin 2) * 1 + 1 * 0 = 0; omega
    | ⟨1, _⟩ => show win2_2.index t (1 : Fin 2) * 64 + 1 * d.val = d.val; omega
  have h3 : ((cfg2.win 3).blk t).view.emb (ix2 0 d) = (ix2 0 d : S1x64.Idx) := by
    funext a; apply Fin.ext
    match a with
    | ⟨0, _⟩ => show win2_3.index t (0 : Fin 2) * 1 + 1 * 0 = 0; omega
    | ⟨1, _⟩ => show win2_3.index t (1 : Fin 2) * 64 + 1 * d.val = d.val; omega
  show normElt (V c main_v18 (((cfg2.win 0).blk t).view.emb (ix2 p d)))
      (V c main_v19 (((cfg2.win 1).blk t).view.emb (r2_1.emb (ix2 0 d))))
      (V c main_v19 (((cfg2.win 1).blk t).view.emb (r2_2.emb (ix2 0 d))))
      (V c main_v20 (((cfg2.win 2).blk t).view.emb (ix2 0 d)))
      (V c main_v21 (((cfg2.win 3).blk t).view.emb (ix2 0 d)))
    = normG (V c main_v18) (V c main_v19) (V c main_v20) (V c main_v21) (((cfg2.win 4).blk t).view.emb (ix2 p d))
  rw [h0, h1, h1', h2, h3, h4]
  rfl

/-- An index of the array is in point t's block iff each coordinate is in the block's range on its axis. -/
theorem mem_blk (t : Fin cfg2.N) (i : S262144x64.Idx) :
    i ∈ ((cfg2.win 4).blk t).view.set ↔ ∀ a : Fin 2, win2_4.index t a * S8192x64.size a ≤ (i a).val ∧ (i a).val < win2_4.index t a * S8192x64.size a + S8192x64.size a := by
  show i ∈ ((View.whole main_v22).slice (win2_4.rect t)).set ↔ _
  rw [View.set_slice_whole, Rect.mem_set_unit]
  exact Iff.rfl

/-- The result array after the last write-back: row r lies in the block of point r / 8192. -/
theorem final2 (c : Dev nD) : (dat2 (F := Ideal) V c).arrAt 4 cfg2.N
    = normG (V c main_v18) (V c main_v19) (V c main_v20) (V c main_v21) :=
  (dat2 (F := Ideal) V c).arrAt_eq_of_cover 4 _ (fun t _ => flushed_eq V c t) (fun i => by
    have hi0 : (i 0).val < 262144 := (i 0).isLt
    have hi1 : (i 1).val < 64 := (i 1).isLt
    have hlt : (i 0).val / 8192 < cfg2.N := by rw [show cfg2.N = 32 from N_2]; omega
    obtain ⟨-, -, e2, e3, -⟩ := idx_facts ⟨(i 0).val / 8192, hlt⟩
    refine ⟨⟨(i 0).val / 8192, hlt⟩, flush2_4 _, ?_⟩
    rw [mem_blk]
    intro a
    match a with
    | ⟨0, _⟩ =>
      show win2_4.index ⟨(i 0).val / 8192, hlt⟩ (0 : Fin 2) * 8192 ≤ (i 0).val ∧ (i 0).val < win2_4.index ⟨(i 0).val / 8192, hlt⟩ (0 : Fin 2) * 8192 + 8192
      rw [e2]; show (i 0).val / 8192 * 8192 ≤ (i 0).val ∧ (i 0).val < (i 0).val / 8192 * 8192 + 8192; omega
    | ⟨1, _⟩ =>
      show win2_4.index ⟨(i 0).val / 8192, hlt⟩ (1 : Fin 2) * 64 ≤ (i 1).val ∧ (i 1).val < win2_4.index ⟨(i 0).val / 8192, hlt⟩ (1 : Fin 2) * 64 + 64
      rw [e3]; omega)

end Cert.KernelIdeal.NormValue

end
-- ==== Proof.Spec.lean ====
/-
  The three array functions the kernel's pipelines compute, entry by entry, over the extended reals:
  the batched matrix product of 27 pairs of matrices, and the per-column sum and sum of squares of a
  262144 × 64 matrix (the two rows of the statistics array).
-/
import Idealize.ShloMosaic.PureOps.Ideal
import Idealize.ShloMosaic.Lib.ValueIdx

noncomputable section

open scoped BigOperators

namespace Cert.Spec

open Idealize.ShloMosaic Idealize.ShloMosaic.ValueIdx

/-- Entry (k, p, d) of the batched product: the sum over e of l[k, p, e] · r[k, e, d]. -/
def gemmG (l : (⟨3, ![27, 65536, 64]⟩ : Shape).Idx → EReal) (r : (⟨3, ![27, 64, 64]⟩ : Shape).Idx → EReal) :
    (⟨3, ![27, 65536, 64]⟩ : Shape).Idx → EReal :=
  fun j => ∑ e : Fin 64, l (ix3 (j 0) (j 1) e) * r (ix3 (j 0) e (j 2))

/-- The sum of column d. -/
def colSum (x : (⟨2, ![262144, 64]⟩ : Shape).Idx → EReal) (d : Fin 64) : EReal :=
  ∑ r : Fin 262144, x (ix2 r d)

/-- The sum of the squares of column d. -/
def colSq (x : (⟨2, ![262144, 64]⟩ : Shape).Idx → EReal) (d : Fin 64) : EReal :=
  ∑ r : Fin 262144, x (ix2 r d) * x (ix2 r d)

/-- The statistics array: row 0 the column sums, row 1 the column sums of squares. -/
def statsG (x : (⟨2, ![262144, 64]⟩ : Shape).Idx → EReal) : (⟨2, ![2, 64]⟩ : Shape).Idx → EReal :=
  fun j => if (j 0).val = 0 then colSum x (j 1) else colSq x (j 1)

end Cert.Spec

end
-- ==== Proof.LibReal.lean ====
/-
  Real-valued extended reals and real-valued arrays. An extended real is REAL when it is neither infinity; sums and
  products of reals are real, and the array operations that only move entries around (a gather, a reshape, a
  broadcast, a change of float format) or that add entries up (a batched matrix product, an accumulating scatter)
  keep an array real-valued.
-/
import Idealize.ShloMosaic.PureOps.Ideal
import Idealize.ShloMosaic.PureOps.Ideal.Laws
import Idealize.ShloMosaic.Lib.ValueIdx
import Idealize.ShloMosaic.Lib.Pipeline.Value
import proofs.«121788_j77799037600003_1_alg».proof.Proof.Spec

noncomputable section

open scoped BigOperators

namespace Cert.LibReal

open Idealize.ShloMosaic Idealize.ShloMosaic.ValueIdx

/-! ## Real extended reals -/

/-- An extended real is real when it is the image of a real number. -/
def IsReal (x : EReal) : Prop := ∃ r : ℝ, x = (r : EReal)

/-- A real extended real has a real witness. -/
theorem IsReal.exists {x : EReal} (h : IsReal x) : ∃ r : ℝ, x = (r : EReal) := h

/-- The image of a real number is real. -/
theorem IsReal.of_coe (r : ℝ) : IsReal (r : EReal) := ⟨r, rfl⟩

/-- Real means: neither of the two infinities. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- Zero is real. -/
theorem isReal_zero : IsReal 0 := ⟨0, EReal.coe_zero.symm⟩

/-- One is real. -/
theorem isReal_one : IsReal 1 := ⟨1, EReal.coe_one.symm⟩

/-- The sum of two reals is real. -/
theorem isReal_add {x y : EReal} (hx : IsReal x) (hy : IsReal y) : IsReal (x + y) := by
  obtain ⟨a, rfl⟩ := hx; obtain ⟨b, rfl⟩ := hy; exact ⟨a + b, (EReal.coe_add a b).symm⟩

/-- The product of two reals is real. -/
theorem isReal_mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem isReal_neg {x : EReal} (hx : IsReal x) : IsReal (-x) := by
  obtain ⟨a, rfl⟩ := hx; exact ⟨-a, (EReal.coe_neg a).symm⟩

/-- The difference of two reals is real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The image of a finite sum of real numbers is the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-! ## Real-valued arrays -/

/-- An array is real-valued when every entry is real. -/
def ArrReal {ι : Type*} (v : ι → EReal) : Prop := ∀ i, IsReal (v i)

/-- A gather reads each of its entries from the operand, so a gather of a real-valued array is real-valued. -/
theorem gather_real {s si t : Shape} {w : Nat} (d : GatherDims s si t) (x : s.Idx → EReal) (idx : IVec si w)
    (hx : ArrReal x) : ArrReal (Host.gather d x idx) :=
  fun j => hx (d.operandIdx j idx)

/-- A reshape keeps the entries, in row-major order: a reshaped real-valued array is real-valued. -/
theorem shapeCast_real {s t : Shape} (v : s.Idx → EReal) (h : s.ShapeCasts t) (hv : ArrReal v) :
    ArrReal (shapeCast t v h) :=
  fun j => hv (Shape.reshapeEquiv h j)

/-- Over the extended reals a change to a narrower float format is the identity. -/
theorem truncf_real {s : Shape} {φ ψ : FTy} (a : FVec Ideal s φ) (h : ψ.bits < φ.bits) (ha : ArrReal a) :
    ArrReal (truncf ψ a h : FVec Ideal s ψ) :=
  fun i => ha i

/-- Over the extended reals a change to a wider float format is the identity. -/
theorem extf_real {s : Shape} {φ ψ : FTy} (a : FVec Ideal s φ) (h : φ.bits < ψ.bits) (ha : ArrReal a) :
    ArrReal (extf ψ a h : FVec Ideal s ψ) :=
  fun i => ha i

/-- The batched matrix product of two real-valued arrays is real-valued: each entry is a finite sum of products. -/
theorem gemmG_real (l : (⟨3, ![27, 65536, 64]⟩ : Shape).Idx → EReal) (r : (⟨3, ![27, 64, 64]⟩ : Shape).Idx → EReal)
    (hl : ArrReal l) (hr : ArrReal r) : ArrReal (Cert.Spec.gemmG l r) :=
  fun j => isReal_sum _ _ fun e _ => isReal_mul (hl _) (hr _)

/-- An accumulating scatter leaves, at each index, the operand's entry plus the sum of the updates that land there:
    real-valued when the operand and the updates are. -/
theorem scatterAdd_real {s si su : Shape} {φ : FTy} {w : Nat} (d : ScatterDims s si su) (x : FVec Ideal s φ)
    (idx : IVec si w) (upd : FVec Ideal su φ) (hx : ArrReal x) (hu : ArrReal upd) :
    ArrReal (Host.scatterAdd (F := Ideal) d x idx upd) := by
  intro i
  unfold Host.scatterAdd
  rw [Ideal.hostScatterAdd_def]
  exact isReal_add (hx i) (isReal_sum _ _ fun j _ => hu j)

/-- The scalar zero broadcast to any shape is real-valued. -/
theorem bcast_zero_real {t : Shape} (dims : Fin (⟨0, ![]⟩ : Shape).rank → Fin t.rank)
    (h : (⟨0, ![]⟩ : Shape).BroadcastsInDim t dims) :
    ArrReal (broadcastInDim t dims h (constant (F := Ideal) (⟨0, ![]⟩ : Shape) .f32 0x00000000#32)) := by
  intro j
  unfold broadcastInDim constant
  show IsReal (Ideal.ofBits .f32 0x00000000#32)
  rw [Ideal.ofBits_zero_f32]
  exact isReal_zero

end Cert.LibReal

end
-- ==== Proof.KernelOut.lean ====
/-
  The kernel program's two named terms.  `kOut` is the array between the pipelines: the gathered rows times the
  weights, offset by offset, flattened and added onto a zero array at the rows the second index column names.
  `kRes` is the result: that array normalized by its own column statistics, scaled, shifted, clipped at zero.
  From real-valued features and weights `kOut` is real-valued: a gather copies entries, a product of matrices and a
  scatter onto zeros form finite sums of products.
-/
import proofs.«121788_j77799037600003_1_alg».proof.Proof.KernelChain
import proofs.«121788_j77799037600003_1_alg».proof.Proof.NormValue
import proofs.«121788_j77799037600003_1_alg».proof.Proof.LibReal
import proofs.«121788_j77799037600003_1_alg».proof.Proof.Spec

noncomputable section

namespace Cert.KernelIdeal.KernelOut

open Idealize.ShloMosaic Cert.LibReal
open Cert.KernelIdeal Cert.KernelIdeal.Gen

/-- The scattered products: what the second and the third pipeline read. -/
def kOut (x : FVec Ideal S262144x64 .f32) (kmap : IVec S27x65536x2 32) (w : FVec Ideal S27x64x64 .f32) : FVec Ideal S262144x64 .f32 :=
  Chain.scattered (F := Ideal) kmap
    (Cert.Spec.gemmG (truncf .bf16 (Chain.gathered (F := Ideal) x kmap) bitsLt_bf16_f32) (truncf .bf16 w bitsLt_bf16_f32))

/-- The program's result. -/
def kRes (x : FVec Ideal S262144x64 .f32) (kmap : IVec S27x65536x2 32) (w : FVec Ideal S27x64x64 .f32) (g b : FVec Ideal S64 .f32) :
    FVec Ideal S262144x64 .f32 :=
  NormValue.normG (kOut x kmap w) (Cert.Spec.statsG (kOut x kmap w)) (shapeCast S1x64 g shapeCasts_S64_S1x64) (shapeCast S1x64 b shapeCasts_S64_S1x64)

/-- Real-valued features and weights give a real-valued array between the pipelines. -/
theorem kOut_real (x : FVec Ideal S262144x64 .f32) (kmap : IVec S27x65536x2 32) (w : FVec Ideal S27x64x64 .f32)
    (hx : ArrReal x) (hw : ArrReal w) : ArrReal (kOut x kmap w) := by
  unfold kOut Chain.scattered
  exact scatterAdd_real _ _ _ _ (bcast_zero_real _ _)
    (shapeCast_real _ _ (gemmG_real _ _ (truncf_real _ _ (gather_real _ _ _ hx)) (truncf_real _ _ hw)))

end Cert.KernelIdeal.KernelOut

end
-- ==== Proof.GemmValue.lean ====
/-
  The batched matrix product the first pipeline computes. Its grid has 27 × 8 points; point (k, q) reads rows
  8192·q … 8192·q + 8191 of the k-th left matrix and the whole k-th right matrix, multiplies them into a zero
  accumulator and writes the product back as rows 8192·q … 8192·q + 8191 of the k-th result matrix. Entry by entry over
  the extended reals, the result array is therefore the batched product of the two input arrays: entry (k, p, d) is the
  sum over e of l[k, p, e] · r[k, e, d], and the 216 blocks cover the result array.
-/
import proofs.«121788_j77799037600003_1_alg».proof.Proof.Gen.KernelIdeal.Frame
import proofs.«121788_j77799037600003_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GemmValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block's product, entry by entry -/

/-- The block product's dimension numbers contract one axis, -/
theorem contr_rank : dot_S8192x64_S64x64_S8192x64_1_0_0_1_n_n.contr.rank = 1 := rfl
/-- of 64 entries. -/
theorem contr_size : dot_S8192x64_S64x64_S8192x64_1_0_0_1_n_n.contr.size ⟨0, by rw [contr_rank]; exact Nat.one_pos⟩ = 64 := rfl

/-- The body's payload at an index: the leading unit axes dropped and put back, entry (0, p, d) of the block product
    into a zero accumulator is the sum over e of x0[0, p, e] · x1[0, e, d]. -/
theorem pay_apply (x0 : Vec Ideal S1x8192x64 .bf16) (x1 : Vec Ideal S1x64x64 .bf16) (u : Fin 1) (p : Fin 8192) (d : Fin 64) :
    k0_pay1 (F := Ideal) x0 x1 (ix3 u p d) = ∑ e : Fin 64, x0 (ix3 (0 : Fin 1) p e) * x1 (ix3 (0 : Fin 1) e d) := by
  unfold k0_pay1
  refine (shapeCast_ab_1ab_apply _ _ u p d).trans ?_
  refine (Ideal.matmul_constant_zero_apply dot_S8192x64_S64x64_S8192x64_1_0_0_1_n_n none _ _ _).trans ?_
  rw [← Equiv.sum_comp (contrEquiv1 dot_S8192x64_S64x64_S8192x64_1_0_0_1_n_n 64 contr_rank contr_size).symm]
  refine Finset.sum_congr rfl fun e _ => ?_
  have hl : dot_S8192x64_S64x64_S8192x64_1_0_0_1_n_n.lhsIdx (ix2 p d)
      ((contrEquiv1 dot_S8192x64_S64x64_S8192x64_1_0_0_1_n_n 64 contr_rank contr_size).symm e) = ix2 p e := by
    funext a
    match a with
    | ⟨0, _⟩ => exact Fin.ext rfl
    | ⟨1, _⟩ =>
      refine Fin.ext ?_
      exact (DotDims.lhsIdx_val_of_single _ (cl := (1 : Fin 2)) rfl (ix2 p d) _).trans
        (contrEquiv1_symm_val _ 64 contr_rank contr_size e)
  have hr : dot_S8192x64_S64x64_S8192x64_1_0_0_1_n_n.rhsIdx (ix2 p d)
      ((contrEquiv1 dot_S8192x64_S64x64_S8192x64_1_0_0_1_n_n 64 contr_rank contr_size).symm e) = ix2 e d := by
    funext a
    match a with
    | ⟨1, _⟩ => exact Fin.ext rfl
    | ⟨0, _⟩ =>
      refine Fin.ext ?_
      exact (DotDims.rhsIdx_val_of_single _ (cr := (0 : Fin 2)) rfl (ix2 p d) _).trans
        (contrEquiv1_symm_val _ 64 contr_rank contr_size e)
  refine (congrArg₂ (· * ·) (congrArg _ hl) (congrArg _ hr)).trans ?_
  exact congrArg₂ (· * ·) (shapeCast_1ab_ab_apply x0 _ p e) (shapeCast_1ab_ab_apply x1 _ e d)

/-- When the left block is rows Q·8192 … of matrix K of the array A and the right block is matrix K of the array B,
    entry y of the block product is entry i of the batched product of A and B, i the array index of y: batch K, row
    Q·8192 + (row of y), the same column. -/
theorem block_entry (A : S27x65536x64.Idx → EReal) (B : S27x64x64.Idx → EReal)
    (x0 : Vec Ideal S1x8192x64 .bf16) (x1 : Vec Ideal S1x64x64 .bf16) (K Q : Nat)
    (h0 : ∀ (y : S1x8192x64.Idx) (i : S27x65536x64.Idx), (i 0).val = K → (i 1).val = Q * 8192 + (y 1).val →
      (i 2).val = (y 2).val → x0 y = A i)
    (h1 : ∀ (y : S1x64x64.Idx) (i : S27x64x64.Idx), (i 0).val = K → (i 1).val = (y 1).val →
      (i 2).val = (y 2).val → x1 y = B i)
    (y : S1x8192x64.Idx) (i : S27x65536x64.Idx) (hi0 : (i 0).val = K) (hi1 : (i 1).val = Q * 8192 + (y 1).val)
    (hi2 : (i 2).val = (y 2).val) :
    k0_pay1 (F := Ideal) x0 x1 y = Cert.Spec.gemmG A B i := by
  obtain ⟨u, p, d, rfl⟩ : ∃ (u : Fin 1) (p : Fin 8192) (d : Fin 64), y = ix3 u p d := ⟨y 0, y 1, y 2, eq_ix3 y⟩
  rw [pay_apply]
  show _ = ∑ e : Fin 64, A (ix3 (i 0) (i 1) e) * B (ix3 (i 0) e (i 2))
  refine Finset.sum_congr rfl fun e _ => ?_
  exact congrArg₂ (· * ·) (h0 (ix3 (0 : Fin 1) p e) (ix3 (i 0) (i 1) e) hi0 hi1 rfl)
    (h1 (ix3 (0 : Fin 1) e d) (ix3 (i 0) e (i 2)) hi0 rfl hi2)

/-! ## The windows' blocks -/

theorem hz3 : (![0, 0, 0] : Fin 3 → Nat) = fun _ => 0 := funext fun a => by fin_cases a <;> rfl

/-- The printed index maps, decided over the grid: point t is (k, q) = (t / 8, t % 8); the left operand's and the
    result's block indices are (k, q, 0), the right operand's is (k, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

section
variable (V : (c : Dev nD) → (b : Ref sig .tc) → Buf (Elt Ideal) ((c : Thread nD τ).loc b))

/-- The left operand's block at point t = (k, q) is rows 8192·q … of matrix k of its array. -/
theorem lhs_block_apply (c : Dev nD) (t : Fin cfg0.N) (y : S1x8192x64.Idx) (i : S27x65536x64.Idx)
    (h0 : (i 0).val = t.val / 8) (h1 : (i 1).val = t.val % 8 * 8192 + (y 1).val) (h2 : (i 2).val = (y 2).val) :
    (iblk0 (F := Ideal) V c 0 t : Vec Ideal S1x8192x64 .bf16) y = (V c main_v11 : S27x65536x64.Idx → EReal) i := by
  obtain ⟨e0, e1, e2, -⟩ := idx_facts t
  have hy0 : (y 0).val < 1 := (y 0).isLt
  unfold iblk0
  rw [View.read_apply]
  show V c main_v11 _ = V c main_v11 _
  congr 1
  funext a
  apply Fin.ext
  match a with
  | ⟨0, _⟩ => show win0_0.index t (0 : Fin 3) * 1 + 1 * (y 0).val = (i 0).val; omega
  | ⟨1, _⟩ => show win0_0.index t (1 : Fin 3) * 8192 + 1 * (y 1).val = (i 1).val; omega
  | ⟨2, _⟩ => show win0_0.index t (2 : Fin 3) * 64 + 1 * (y 2).val = (i 2).val; omega

/-- The right operand's block at point t = (k, q) is matrix k of its array. -/
theorem rhs_block_apply (c : Dev nD) (t : Fin cfg0.N) (y : S1x64x64.Idx) (i : S27x64x64.Idx)
    (h0 : (i 0).val = t.val / 8) (h1 : (i 1).val = (y 1).val) (h2 : (i 2).val = (y 2).val) :
    (iblk0 (F := Ideal) V c 1 t : Vec Ideal S1x64x64 .bf16) y = (V c main_v12 : S27x64x64.Idx → EReal) i := by
  obtain ⟨-, -, -, e0, e1, e2, -⟩ := idx_facts t
  have hy0 : (y 0).val < 1 := (y 0).isLt
  unfold iblk0
  rw [View.read_apply]
  show V c main_v12 _ = V c main_v12 _
  congr 1
  funext a
  apply Fin.ext
  match a with
  | ⟨0, _⟩ => show win0_1.index t (0 : Fin 3) * 1 + 1 * (y 0).val = (i 0).val; omega
  | ⟨1, _⟩ => show win0_1.index t (1 : Fin 3) * 64 + 1 * (y 1).val = (i 1).val; omega
  | ⟨2, _⟩ => show win0_1.index t (2 : Fin 3) * 64 + 1 * (y 2).val = (i 2).val; omega

/-- WHAT POINT t WRITES BACK is block t of the batched product of the two input arrays as the region finds them. -/
theorem flushed_eq (c : Dev nD) (t : Fin cfg0.N) :
    (dat0 (F := Ideal) V c).flushed 2 t
      = ((cfg0.win 2).blk t).view.read (Elt Ideal) (Cert.Spec.gemmG (V c main_v11) (V c main_v12)) := by
  show (cfg0.win 2).cut (grid0.coords t) ((dat0 V c).after 2 t) = _
  rw [after0_2]
  unfold out0_2
  rw [View.canon_unit_zero hz3]
  simp only [View.ld_unit_zero (S := S1x8192x64) hz3, View.ld_unit_zero (S := S1x64x64) hz3]
  obtain ⟨-, -, -, -, -, -, e0, e1, e2⟩ := idx_facts t
  funext j
  have hj0 : (j 0).val < 1 := (j 0).isLt
  show k0_pay1 (F := Ideal) (iblk0 V c 0 t) (iblk0 V c 1 t) j
    = Cert.Spec.gemmG (V c main_v11) (V c main_v12) (((cfg0.win 2).blk t).view.emb j)
  refine block_entry (V c main_v11) (V c main_v12) (iblk0 V c 0 t) (iblk0 V c 1 t) (t.val / 8) (t.val % 8)
    (fun y i a b d => lhs_block_apply V c t y i a b d) (fun y i a b d => rhs_block_apply V c t y i a b d)
    j (((cfg0.win 2).blk t).view.emb j) ?_ ?_ ?_
  · show win0_2.index t (0 : Fin 3) * 1 + 1 * (j 0).val = t.val / 8; omega
  · show win0_2.index t (1 : Fin 3) * 8192 + 1 * (j 1).val = t.val % 8 * 8192 + (j 1).val; omega
  · show win0_2.index t (2 : Fin 3) * 64 + 1 * (j 2).val = (j 2).val; omega

/-! ## From the blocks to the array -/

/-- An index of the result array is in point t's block iff each coordinate is in the block's range on its axis. -/
theorem mem_blk (t : Fin cfg0.N) (i : S27x65536x64.Idx) :
    i ∈ ((cfg0.win 2).blk t).view.set ↔ ∀ a : Fin 3, win0_2.index t a * S1x8192x64.size a ≤ (i a).val
      ∧ (i a).val < win0_2.index t a * S1x8192x64.size a + S1x8192x64.size a := by
  show i ∈ ((View.whole main_v13).slice (win0_2.rect t)).set ↔ _
  rw [View.set_slice_whole, Rect.mem_set_unit]
  exact Iff.rfl

/-- Every entry (k, p, d) of the result array is in the block of the point (k, p / 8192). -/
theorem cover (i : S27x65536x64.Idx) :
    ∃ t : Fin cfg0.N, (cfg0.win 2).flush t = true ∧ i ∈ ((cfg0.win 2).blk t).view.set := by
  have hi0 : (i 0).val < 27 := (i 0).isLt
  have hi1 : (i 1).val < 65536 := (i 1).isLt
  have hi2 : (i 2).val < 64 := (i 2).isLt
  have hN : cfg0.N = 216 := N_0
  obtain ⟨t, ht⟩ : ∃ t : Fin cfg0.N, t.val = (i 0).val * 8 + (i 1).val / 8192 :=
    ⟨⟨(i 0).val * 8 + (i 1).val / 8192, by rw [hN]; omega⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 64 ≤ (i 2).val ∧ (i 2).val < win0_2.index t (2 : Fin 3) * 64 + 64; omega

/-- THE RESULT ARRAY after the whole grid is the batched product of the two input arrays as the region found them. -/
theorem final0 (c : Dev nD) :
    (dat0 (F := Ideal) V c).arrAt 2 cfg0.N = Cert.Spec.gemmG (V c main_v11) (V c main_v12) :=
  (dat0 (F := Ideal) V c).arrAt_eq_of_cover 2 (Cert.Spec.gemmG (V c main_v11) (V c main_v12))
    (fun t _ => flushed_eq V c t) cover

end

end Cert.GemmValue

end
-- ==== Proof.StatsPieces.lean ====
/-
  The column statistics, piece by piece. At every grid point the body stores two rows of a 2 x 64 block: row 0 receives
  the value read from row 0 plus the sum, over the 8192 rows of the point's input block, of each column; row 1 receives
  the value read from row 1 plus the same sum of the squares. At the first point the zero block is stored first, so the
  values read are zeros. This module reads the two row payloads at a column over the extended reals, and states what each
  of the two control cases leaves in the block as an explicit list of row stores.
-/
import proofs.«121788_j77799037600003_1_alg».proof.Proof.Gen.KernelIdeal.Frame
import proofs.«121788_j77799037600003_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem
open Idealize.ShloMosaic.ValueIdx
open Idealize.ShloMosaic.Pipeline (Dat)

namespace Cert.KernelIdeal.Stats

open Cert.KernelIdeal Cert.KernelIdeal.Gen

/-! ## The payloads of the two row stores, read at a column (extended reals) -/

/-- The one row index of a 1 x 64 vector. -/
abbrev r0 : Fin 1 := ⟨0, Nat.one_pos⟩

/-- A sum over the 8192 rows of a block, read at column d: the sum of the column's entries. -/
theorem colsum_apply (x : FVec Ideal S8192x64 .f32) (hacc : (0x00000000#32 : BitVec 32) = 0x00000000#32) (d : Fin 64) :
    multiReduction (F := Ideal) .add [0] S64 x 0x00000000#32 reduces_S8192x64_S64 (.inl rfl) hacc (ix1 d)
      = ∑ q : Fin 8192, x (ix2 q d) := by
  refine (Ideal.multiReduction_add_single x 0x00000000#32 reduces_S8192x64_S64 (.inl rfl) hacc (ix1 d)).trans ?_
  show (∑ q : Fin 8192, x (reduces_S8192x64_S64.lift (ix1 d) q)) = _
  refine Finset.sum_congr rfl fun q _ => congrArg x ?_
  funext a
  match a with
  | ⟨0, _⟩ => rfl
  | ⟨1, _⟩ => rfl

/-- A 64-vector viewed as 1 x 64, at (0, d), is the vector at d. -/
theorem row_apply (v : FVec Ideal S64 .f32) (d : Fin 64) :
    shapeCast S1x64 v shapeCasts_S64_S1x64 (ix2 r0 d) = v (ix1 d) := by
  refine (shapeCast_addUnit_apply ![64] v shapeCasts_S64_S1x64 (ix2 r0 d)).trans ?_
  refine congrArg v ?_
  funext a
  match a with
  | ⟨0, _⟩ => rfl

/-- The payload stored in row 0 at column d: the value read there plus the block's column sum. -/
theorem pay3_apply (x : FVec Ideal S8192x64 .f32) (v : FVec Ideal S1x64 .f32) (d : Fin 64) :
    k1_pay3 (F := Ideal) x v (ix2 r0 d) = v (ix2 r0 d) + ∑ q : Fin 8192, x (ix2 q d) := by
  unfold k1_pay3 k1_pay2
  show shapeCast S1x64 v shapeCasts_S1x64_S1x64 (ix2 r0 d) + shapeCast S1x64 _ shapeCasts_S64_S1x64 (ix2 r0 d) = _
  refine congrArg₂ (· + ·) (congrFun (shapeCast_self v _) _) ?_
  refine (row_apply _ d).trans ?_
  refine (colsum_apply _ rfl d).trans ?_
  exact Finset.sum_congr rfl fun q _ => congrFun (shapeCast_self x _) _

/-- The payload stored in row 1 at column d: the value read there plus the block's column sum of squares. -/
theorem pay4_apply (x : FVec Ideal S8192x64 .f32) (v : FVec Ideal S1x64 .f32) (d : Fin 64) :
    k1_pay4 (F := Ideal) x v (ix2 r0 d) = v (ix2 r0 d) + ∑ q : Fin 8192, x (ix2 q d) * x (ix2 q d) := by
  unfold k1_pay4 k1_pay2
  show shapeCast S1x64 v shapeCasts_S1x64_S1x64 (ix2 r0 d) + shapeCast S1x64 _ shapeCasts_S64_S1x64 (ix2 r0 d) = _
  refine congrArg₂ (· + ·) (congrFun (shapeCast_self v _) _) ?_
  refine (row_apply _ d).trans ?_
  refine (colsum_apply _ rfl d).trans ?_
  refine Finset.sum_congr rfl fun q _ => ?_
  show shapeCast S8192x64 x _ (ix2 q d) * shapeCast S8192x64 x _ (ix2 q d) = _
  rw [shapeCast_self]

/-! ## What each control case leaves in the 2 x 64 block, as a list of row stores -/

section Pieces

variable {F : FTy → Type} [FloatOps F]

theorem hz : (![0, 0] : Fin 2 → Nat) = fun _ => 0 := funext fun a => by fin_cases a <;> rfl

/-- Row 0, row 1 and the whole of the 2 x 64 block. -/
abbrev R0 : Rect S2x64 := Rect.unit ![0, 0] ![1, 64] inb_S2x64_S1x64_0_0
abbrev R1 : Rect S2x64 := Rect.unit ![1, 0] ![1, 64] inb_S2x64_S1x64_1_0
abbrev RW : Rect S2x64 := Rect.unit ![0, 0] S2x64.size inb_S2x64_S2x64_0_0

/-- A later point: over the previous contents xo, row 0 is stored from xo's row 0 and the block x, then row 1 from xo's row 1. -/
def accB (x : Vec F S8192x64 .f32) (xo : Vec F S2x64 .f32) : Vec F S2x64 .f32 :=
  View.canon (Val := Elt F) [⟨R1, k1_pay4 x (View.ld xo R1)⟩, ⟨R0, k1_pay3 x (View.ld xo R0)⟩]

/-- The first point: the same two stores over the zero block, which is stored first. -/
def accA (x : Vec F S8192x64 .f32) : Vec F S2x64 .f32 :=
  View.canon (Val := Elt F) [⟨R1, k1_pay4 x (View.ld (k1_pay1 (F := F)) R1)⟩, ⟨R0, k1_pay3 x (View.ld (k1_pay1 (F := F)) R0)⟩, ⟨RW, k1_pay1 (F := F)⟩]

theorem out_B (c : Dev nD) (i : grid1.Coords) (a1 : Memref sig .tc .vmem S8192x64 .f32) (h1 : a1.IsWhole)
    (a2 : Memref sig .tc .vmem S2x64 .f32) (h2 : a2.IsWhole) (hc : ¬cond1_0 i) (x : Vec F S8192x64 .f32) (xo : Vec F S2x64 .f32) :
    out1_B_1 c i a1 h1 a2 h2 hc x xo = accB x xo := by
  unfold out1_B_1
  rw [View.read_writes_eq_canon _ _ _ (cover1_B_1 c i a1 h1 a2 h2 hc x xo)]
  unfold kernelRun1_B
  dsimp only
  sl_unfold_words
  simp only [View.readAt_eq_ld, h1.read_unread, h2.read_unread, View.ld_unit_zero (S := S8192x64) hz]
  rfl

/-- A load of a row of the block after the zero block was stored reads the zero block's row. -/
theorem readCov_zero (v : View sig .tc .vmem S2x64 .f32) (B : LoadRect S2x64) :
    v.readCov [(⟨RW, k1_pay1 (F := F)⟩ : View.Piece (Elt F) S2x64 .f32)] B = fun j => k1_pay1 (F := F) (B.idx j) := by
  rw [View.readCov_eq_canon']
  funext j
  exact congrFun (View.canon_unit_zero (Val := Elt F) (S := S2x64) (e := .f32) hz inb_S2x64_S2x64_0_0 (k1_pay1 (F := F))) _

theorem out_A (c : Dev nD) (i : grid1.Coords) (a1 : Memref sig .tc .vmem S8192x64 .f32) (h1 : a1.IsWhole)
    (a2 : Memref sig .tc .vmem S2x64 .f32) (h2 : a2.IsWhole) (hc : cond1_0 i) (x : Vec F S8192x64 .f32) :
    out1_A_1 c i a1 h1 a2 h2 hc x = accA x := by
  unfold out1_A_1
  rw [View.read_writes_eq_canon _ _ _ (cover1_A_1 c i a1 h1 a2 h2 hc x)]
  unfold kernelRun1_A
  dsimp only
  sl_unfold_words
  simp only [View.readAt_eq_ld, h1.read_unread, View.ld_unit_zero (S := S8192x64) hz]
  have hd : Disjoint (R0 : Rect S2x64).set (R1 : Rect S2x64).toLoadRect.set :=
    Rect.unit_disjoint (s := S2x64) (off := ![0, 0]) (size := ![1, 64]) (off' := ![1, 0]) (size' := ![1, 64]) 0
      (Or.inl (show (![0, 0] : Fin 2 → Nat) 0 + (![1, 64] : Fin 2 → Nat) 0 ≤ (![1, 0] : Fin 2 → Nat) 0 from by decide))
  have e1 : ∀ w0, a2.view.readCov [(⟨R0, w0⟩ : View.Piece (Elt F) S2x64 .f32), ⟨RW, k1_pay1 (F := F)⟩] R1.toLoadRect
      = View.ld (k1_pay1 (F := F)) R1 := fun w0 =>
    (View.readCov_cons_of_disjoint a2.view (⟨R0, w0⟩ : View.Piece (Elt F) S2x64 .f32) [⟨RW, k1_pay1 (F := F)⟩] R1.toLoadRect hd).trans
      (readCov_zero a2.view R1.toLoadRect)
  have e0 : a2.view.readCov [(⟨RW, k1_pay1 (F := F)⟩ : View.Piece (Elt F) S2x64 .f32)] R0.toLoadRect
      = View.ld (k1_pay1 (F := F)) R0 := readCov_zero a2.view _
  rw [e1, e0]
  rfl

end Pieces

end Cert.KernelIdeal.Stats
end
-- ==== Proof.StatsValue.lean ====
/-
  The column statistics after the whole grid. The input array has 262144 rows and 64 columns; the grid has 32 points, and
  point t reads rows 8192 t .. 8192 t + 8191. The 2 x 64 statistics block is carried from point to point: the first point
  stores zeros and then adds, every later point adds, to row 0 the column sums of its rows and to row 1 the column sums of
  their squares. By induction on the point, after point n row 0 holds the column sums over the rows of blocks 0..n and
  row 1 the column sums of squares over the same rows (sums of extended reals, regrouped freely). The 32 blocks of 8192
  rows are exactly the 262144 rows, so after the last point the block holds the column sums and the column sums of
  squares of the whole array; the last point writes the block back, and the block is the whole 2 x 64 array.
-/
import proofs.«121788_j77799037600003_1_alg».proof.Proof.StatsPieces

noncomputable section

open scoped BigOperators
open Idealize.ShloMosaic Idealize.ShloMosaic.TcCoe Idealize.SL.Sem
open Idealize.ShloMosaic.ValueIdx
open Idealize.ShloMosaic.Pipeline (Dat)

namespace Cert.KernelIdeal.Stats

open Cert.KernelIdeal Cert.KernelIdeal.Gen

/-! ## The two row stores, read at a column -/

/-- The two row indices of the 2 x 64 block. -/
abbrev i0 : Fin 2 := ⟨0, by decide⟩
abbrev i1 : Fin 2 := ⟨1, by decide⟩

/-- Entry d of row 0 of the block is (0, d); of row 1, (1, d); and (0, d) is not in row 1. -/
theorem emb0 (d : Fin 64) : R0.emb (ix2 r0 d) = ix2 i0 d := by
  funext a; apply Fin.ext
  match a with
  | ⟨0, _⟩ => rfl
  | ⟨1, _⟩ => show 0 + 1 * d.val = d.val; omega

theorem emb1 (d : Fin 64) : R1.emb (ix2 r0 d) = ix2 i1 d := by
  funext a; apply Fin.ext
  match a with
  | ⟨0, _⟩ => rfl
  | ⟨1, _⟩ => show 0 + 1 * d.val = d.val; omega

theorem not_mem1 (d : Fin 64) : ix2 i0 d ∉ R1.set := by
  intro h
  have h' : (1 : Nat) ≤ 0 := ((Rect.mem_set_unit.mp h) 0).1
  omega

/-- The store of row 1 and the store of row 0, over a block v whose rows they read, and the store of the zero block. -/
abbrev P1 (x : FVec Ideal S8192x64 .f32) (v : FVec Ideal S2x64 .f32) : View.Piece (Elt Ideal) S2x64 .f32 :=
  ⟨R1, k1_pay4 (F := Ideal) x (View.ld v R1)⟩
abbrev P0 (x : FVec Ideal S8192x64 .f32) (v : FVec Ideal S2x64 .f32) : View.Piece (Elt Ideal) S2x64 .f32 :=
  ⟨R0, k1_pay3 (F := Ideal) x (View.ld v R0)⟩
abbrev PZ : View.Piece (Elt Ideal) S2x64 .f32 := ⟨RW, k1_pay1 (F := Ideal)⟩

theorem accB_eq (x : FVec Ideal S8192x64 .f32) (xo : FVec Ideal S2x64 .f32) :
    accB (F := Ideal) x xo = View.canon (Val := Elt Ideal) [P1 x xo, P0 x xo] := rfl
theorem accA_eq (x : FVec Ideal S8192x64 .f32) :
    accA (F := Ideal) x = View.canon (Val := Elt Ideal) [P1 x (k1_pay1 (F := Ideal)), P0 x (k1_pay1 (F := Ideal)), PZ] := rfl

/-- After the two row stores over v (whatever was stored before them), row 0 at column d holds v's entry plus the
    block's column sum, -/
theorem read_row0 (x : FVec Ideal S8192x64 .f32) (v : FVec Ideal S2x64 .f32) (L : List (View.Piece (Elt Ideal) S2x64 .f32)) (d : Fin 64) :
    View.canon (Val := Elt Ideal) (P1 x v :: P0 x v :: L) (ix2 i0 d) = v (ix2 i0 d) + ∑ q : Fin 8192, x (ix2 q d) := by
  refine (View.canon_cons_of_not_mem (Val := Elt Ideal) (P1 x v) (P0 x v :: L) (y := ix2 i0 d) (not_mem1 d)).trans ?_
  have e := View.canon_cons_emb (Val := Elt Ideal) R0 (k1_pay3 (F := Ideal) x (View.ld v R0)) L (ix2 r0 d)
  rw [emb0 d] at e
  refine e.trans ?_
  refine (pay3_apply x _ d).trans ?_
  show v (R0.emb (ix2 r0 d)) + _ = _
  rw [emb0 d]

/-- and row 1 at column d holds v's entry plus the block's column sum of squares. -/
theorem read_row1 (x : FVec Ideal S8192x64 .f32) (v : FVec Ideal S2x64 .f32) (L : List (View.Piece (Elt Ideal) S2x64 .f32)) (d : Fin 64) :
    View.canon (Val := Elt Ideal) (P1 x v :: L) (ix2 i1 d) = v (ix2 i1 d) + ∑ q : Fin 8192, x (ix2 q d) * x (ix2 q d) := by
  have e := View.canon_cons_emb (Val := Elt Ideal) R1 (k1_pay4 (F := Ideal) x (View.ld v R1)) L (ix2 r0 d)
  rw [emb1 d] at e
  refine e.trans ?_
  refine (pay4_apply x _ d).trans ?_
  show v (R1.emb (ix2 r0 d)) + _ = _
  rw [emb1 d]

/-- The zero block is zero at every entry. -/
theorem pay1_apply (j : S2x64.Idx) : k1_pay1 (F := Ideal) j = (0 : EReal) := by
  unfold k1_pay1
  show Ideal.ofBits .f32 0x00000000#32 = 0
  exact Ideal.ofBits_zero_f32

/-! ## The input block at a point, and the running sums -/

variable (V : (c : Dev nD) → (b : Ref sig .tc) → Buf (Elt Ideal) ((c : Thread nD τ).loc b))

/-- Window 0's block at point t is block row t, block column 0 of the array. -/
theorem idx_facts : ∀ t : Fin cfg1.N, win1_0.index t 0 = t.val ∧ win1_0.index t 1 = 0 :=
  (by decide +kernel : ∀ t : Fin grid1.N, win1_0.index t 0 = t.val ∧ win1_0.index t 1 = 0)

/-- Row q of block s is row 8192 s + q of the array (s < 32). -/
abbrev rowOf (s : Nat) (hs : s < 32) (q : Fin 8192) : Fin 262144 := ⟨8192 * s + q.val, by have := q.isLt; omega⟩

/-- The block read: entry (q, d) of the point's block is entry (8192 t + q, d) of the array. -/
theorem iblk_apply (c : Dev nD) (t : Fin cfg1.N) (ht : t.val < 32) (q : Fin 8192) (d : Fin 64) :
    iblk1 V c 0 t (ix2 q d) = V c main_v18 (ix2 (rowOf t.val ht q) d) := by
  have hi := idx_facts t
  unfold iblk1
  rw [View.read_apply]
  show V c main_v18 _ = V c main_v18 _
  congr 1
  funext a
  apply Fin.ext
  match a with
  | ⟨0, _⟩ => show win1_0.index t 0 * 8192 + 1 * q.val = 8192 * t.val + q.val; rw [hi.1]; omega
  | ⟨1, _⟩ => show win1_0.index t 1 * 64 + 1 * d.val = d.val; rw [hi.2]; omega

/-- The column sum, and the column sum of squares, of block s of an array (zero for s ≥ 32). -/
def bsum (X : (⟨2, ![262144, 64]⟩ : Shape).Idx → EReal) (d : Fin 64) (s : Nat) : EReal :=
  if hs : s < 32 then ∑ q : Fin 8192, X (ix2 (rowOf s hs q) d) else 0
def bsq (X : (⟨2, ![262144, 64]⟩ : Shape).Idx → EReal) (d : Fin 64) (s : Nat) : EReal :=
  if hs : s < 32 then ∑ q : Fin 8192, X (ix2 (rowOf s hs q) d) * X (ix2 (rowOf s hs q) d) else 0

/-- THE INVARIANT. After point n the block holds, in row 0, the column sums of blocks 0..n, and in row 1 their
    column sums of squares — by induction on the point. -/
theorem outsAt_rows (c : Dev nD) : ∀ (n : Nat) (hn : n < cfg1.N) (d : Fin 64),
    outsAt1 (F := Ideal) V c n hn (ix2 i0 d) = ∑ s ∈ Finset.range (n + 1), bsum (V c main_v18) d s
    ∧ outsAt1 (F := Ideal) V c n hn (ix2 i1 d) = ∑ s ∈ Finset.range (n + 1), bsq (V c main_v18) d s
  | 0, hn, d => by
    have h32 : (0 : Nat) < 32 := by decide
    have hA := outsAt1_A (F := Ideal) V c ⟨0, hn⟩ rfl
    have hO := out_A (F := Ideal) c (grid1.coords ⟨0, hn⟩) (ms1_0 ⟨0, hn⟩) (hs1_0 ⟨0, hn⟩) (ms1_1 ⟨0, hn⟩) (hs1_1 ⟨0, hn⟩)
      ((hcond1_0 ⟨0, hn⟩).mpr rfl) (iblk1 V c 0 ⟨0, hn⟩)
    have hE : outsAt1 (F := Ideal) V c 0 hn = accA (F := Ideal) (iblk1 V c 0 ⟨0, hn⟩) := hA.trans hO
    rw [hE, accA_eq, Finset.sum_range_one, Finset.sum_range_one]
    constructor
    · refine (read_row0 _ _ _ d).trans ?_
      rw [pay1_apply, zero_add]
      unfold bsum
      rw [dif_pos h32]
      exact Finset.sum_congr rfl fun q _ => iblk_apply V c ⟨0, hn⟩ h32 q d
    · refine (read_row1 _ _ _ d).trans ?_
      rw [pay1_apply, zero_add]
      unfold bsq
      rw [dif_pos h32]
      exact Finset.sum_congr rfl fun q _ => by rw [iblk_apply V c ⟨0, hn⟩ h32 q d]
  | n + 1, hn, d => by
    have hN : cfg1.N = 32 := N_1
    have h32 : n + 1 < 32 := by omega
    have hB : ¬(⟨n + 1, hn⟩ : Fin cfg1.N).val % 32 = 0 := by dsimp only; omega
    have hA := outsAt1_B (F := Ideal) V c ⟨n + 1, hn⟩ hB
    have hO := out_B (F := Ideal) c (grid1.coords ⟨n + 1, hn⟩) (ms1_0 ⟨n + 1, hn⟩) (hs1_0 ⟨n + 1, hn⟩) (ms1_1 ⟨n + 1, hn⟩) (hs1_1 ⟨n + 1, hn⟩)
      (fun h => hB ((hcond1_0 ⟨n + 1, hn⟩).mp h)) (iblk1 V c 0 ⟨n + 1, hn⟩) (outsAt1 (F := Ideal) V c n (Nat.lt_of_succ_lt hn))
    have hE : outsAt1 (F := Ideal) V c (n + 1) hn
        = accB (F := Ideal) (iblk1 V c 0 ⟨n + 1, hn⟩) (outsAt1 (F := Ideal) V c n (Nat.lt_of_succ_lt hn)) := hA.trans hO
    have ih := outsAt_rows c n (Nat.lt_of_succ_lt hn) d
    rw [hE, accB_eq, Finset.sum_range_succ _ (n + 1), Finset.sum_range_succ _ (n + 1)]
    constructor
    · refine (read_row0 _ _ _ d).trans ?_
      rw [ih.1]
      refine congrArg (_ + ·) ?_
      unfold bsum
      rw [dif_pos h32]
      exact Finset.sum_congr rfl fun q _ => iblk_apply V c ⟨n + 1, hn⟩ h32 q d
    · refine (read_row1 _ _ _ d).trans ?_
      rw [ih.2]
      refine congrArg (_ + ·) ?_
      unfold bsq
      rw [dif_pos h32]
      exact Finset.sum_congr rfl fun q _ => by rw [iblk_apply V c ⟨n + 1, hn⟩ h32 q d]

/-! ## All 32 blocks are all 262144 rows -/

/-- A sum over the 262144 rows is the sum, over the 32 blocks, of the sums over each block's 8192 rows. -/
theorem sum_rows (g : Fin 262144 → EReal) :
    ∑ r : Fin 262144, g r = ∑ s : Fin 32, ∑ q : Fin 8192, g (rowOf s.val s.isLt q) := by
  rw [← Fintype.sum_prod_type' (fun (s : Fin 32) (q : Fin 8192) => g (rowOf s.val s.isLt q))]
  refine (Fintype.sum_equiv ((finProdFinEquiv (m := 32) (n := 8192)).trans (finCongr (by norm_num : 32 * 8192 = 262144))) _ _
    fun p => ?_).symm
  refine congrArg g (Fin.ext ?_)
  show 8192 * p.1.val + p.2.val = p.2.val + 8192 * p.1.val
  omega

/-- The block sums over all 32 blocks are the column sum, and the column sum of squares, of the array. -/
theorem bsum_total (X : (⟨2, ![262144, 64]⟩ : Shape).Idx → EReal) (d : Fin 64) :
    ∑ s ∈ Finset.range 32, bsum X d s = Cert.Spec.colSum X d := by
  unfold Cert.Spec.colSum
  rw [sum_rows (fun r => X (ix2 r d)), Finset.sum_range]
  refine Finset.sum_congr rfl fun s _ => ?_
  unfold bsum
  rw [dif_pos s.isLt]

theorem bsq_total (X : (⟨2, ![262144, 64]⟩ : Shape).Idx → EReal) (d : Fin 64) :
    ∑ s ∈ Finset.range 32, bsq X d s = Cert.Spec.colSq X d := by
  unfold Cert.Spec.colSq
  rw [sum_rows (fun r => X (ix2 r d) * X (ix2 r d)), Finset.sum_range]
  refine Finset.sum_congr rfl fun s _ => ?_
  unfold bsq
  rw [dif_pos s.isLt]

/-! ## The statistics array after the whole grid -/

/-- The last point. -/
def tLast : Fin cfg1.N := ⟨31, by rw [show cfg1.N = 32 from N_1]; decide⟩

/-- After the last point the block holds the statistics of the whole array. -/
theorem outsAt_last (c : Dev nD) :
    outsAt1 (F := Ideal) V c tLast.val tLast.isLt = Cert.Spec.statsG (V c main_v18) := by
  funext j
  obtain ⟨a, d, rfl⟩ : ∃ (a : Fin 2) (d : Fin 64), j = ix2 a d := ⟨j 0, j 1, eq_ix2 j⟩
  have h := outsAt_rows V c 31 tLast.isLt d
  unfold Cert.Spec.statsG
  match a with
  | ⟨0, _⟩ =>
    show outsAt1 (F := Ideal) V c 31 _ (ix2 i0 d) = if (0 : Nat) = 0 then _ else _
    rw [if_pos rfl]
    exact h.1.trans (bsum_total _ d)
  | ⟨1, _⟩ =>
    show outsAt1 (F := Ideal) V c 31 _ (ix2 i1 d) = if (1 : Nat) = 0 then _ else _
    rw [if_neg (by decide)]
    exact h.2.trans (bsq_total _ d)

/-- The one write-back, at the last point, writes it: the block is the whole 2 x 64 array. -/
theorem flushed_eq (c : Dev nD) (t : Fin cfg1.N) (hf : (cfg1.win 1).flush t = true) :
    (dat1 (F := Ideal) V c).flushed 1 t = ((cfg1.win 1).blk t).view.read (Elt Ideal) (Cert.Spec.statsG (V c main_v18)) := by
  have hN : cfg1.N = 32 := N_1
  have h31 : t.val = 31 := by have := (flush1_1 t).mp hf; have := t.isLt; omega
  obtain rfl : t = tLast := Fin.ext h31
  show (cfg1.win 1).cut (grid1.coords tLast) ((dat1 (F := Ideal) V c).after 1 tLast) = _
  rw [after1_1, outsAt_last]
  have hz' : (fun a => win1_1.index tLast a * main_v19.ty.shape.size a) = fun _ => 0 := funext fun a => by fin_cases a <;> decide
  exact (Memref.read_access_unit_zero (Elt Ideal) main_v19 hz' (fun a => by rw [congrFun hz' a]; simp) (Cert.Spec.statsG (V c main_v18))).symm

/-- So the statistics array ends holding the column sums and the column sums of squares of the array the region found. -/
theorem final1 (c : Dev nD) : (dat1 (F := Ideal) V c).arrAt 1 cfg1.N = Cert.Spec.statsG (V c main_v18) :=
  (dat1 (F := Ideal) V c).arrAt_eq_of_cover 1 (Cert.Spec.statsG (V c main_v18)) (flushed_eq V c) fun i =>
    ⟨tLast, (flush1_1 tLast).mpr rfl, by
      show i ∈ ((View.whole main_v19).slice (win1_1.rect tLast)).set
      rw [View.set_slice_whole, Rect.mem_set_unit]
      intro a
      have h0 : (i 0 : Nat) < 2 := (i 0).isLt
      have h1 : (i 1 : Nat) < 64 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 2 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 64 from by decide +kernel]; omega⟩

end Cert.KernelIdeal.Stats
end
-- ==== Proof.KernelValue.lean ====
/-
  The kernel program's run, read: the result array ends at `kRes` of the arguments' launch contents.  The first
  pipeline leaves the batched product of the gathered rows and the weights; scattered, that array is what the second
  pipeline sums column by column and the third normalizes block by block.
-/
import proofs.«121788_j77799037600003_1_alg».proof.Proof.RunValue
import proofs.«121788_j77799037600003_1_alg».proof.Proof.KernelChain
import proofs.«121788_j77799037600003_1_alg».proof.Proof.KernelOut
import proofs.«121788_j77799037600003_1_alg».proof.Proof.GemmValue
import proofs.«121788_j77799037600003_1_alg».proof.Proof.NormValue
import proofs.«121788_j77799037600003_1_alg».proof.Proof.StatsValue
import proofs.«121788_j77799037600003_1_alg».proof.Proof.Spec

set_option maxRecDepth 16384

noncomputable section

namespace Cert.KernelIdeal.KernelValue

open Idealize.ShloMosaic Idealize.ShloMosaic.TcCoe Idealize.SL.Sem
open Idealize.ShloMosaic.Pipeline (Dat)
open Cert.KernelIdeal Cert.KernelIdeal.Gen Cert.KernelIdeal.KernelOut

variable (m : (ℓ : Loc nD τ sig) → Buf (Elt Ideal) ℓ) (ρ : Dev nD → PrngReg)

/-- The array between the pipelines is the scattered products of the launch contents. -/
theorem out_eq (c : Dev nD) : W3 m ρ c (Proc.devRef .tc main_v18)
    = kOut (m ((c : Thread nD τ).loc main_arg0)) (m ((c : Thread nD τ).loc main_arg3)) (m ((c : Thread nD τ).loc main_arg4)) := by
  have e11 : V1 m ρ c main_v11 = _ := Chain.W1_v11 m ρ c
  have e12 : V1 m ρ c main_v12 = _ := Chain.W1_v12 m ρ c
  rw [Chain.W3_v18, Cert.GemmValue.final0 (V1 m ρ) c, e11, e12]
  rfl

/-- The result array after the last pipeline. -/
theorem value (c : Dev nD) : W6 m ρ c (Proc.devRef .tc main_v22)
    = kRes (m ((c : Thread nD τ).loc main_arg0)) (m ((c : Thread nD τ).loc main_arg3)) (m ((c : Thread nD τ).loc main_arg4))
        (m ((c : Thread nD τ).loc main_arg5)) (m ((c : Thread nD τ).loc main_arg6)) := by
  have e18 : V5 m ρ c main_v18 = _ := (Chain.W5_v18 m ρ c).trans (out_eq m ρ c)
  have e19 : V5 m ρ c main_v19 = _ := Chain.W5_v19 m ρ c
  have e20 : V5 m ρ c main_v20 = _ := Chain.W5_v20 m ρ c
  have e21 : V5 m ρ c main_v21 = _ := Chain.W5_v21 m ρ c
  have e3 : V3 m ρ c main_v18 = _ := out_eq m ρ c
  rw [show W6 m ρ c (Proc.devRef .tc main_v22) = _ from W6_arr m ρ c 4, NormValue.final2 (V5 m ρ) c, e18, e19, e20, e21,
    Cert.KernelIdeal.Stats.final1 (V3 m ρ) c, e3]
  rfl

/-- The run, read: the result at `kRes` of the launch contents, the arguments unchanged. -/
theorem run : θ_run defs (onTc (τ := τ) (main (F := Ideal))) ⟨m, fun _ => 0, ρ⟩ (fun r => ∀ c : Dev nD,
      r.2.mem ((c.tc : Thread nD τ).loc main_v22) = kRes (m ((c : Thread nD τ).loc main_arg0)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m ρ c), (h c).2⟩) (RunValue.run (F := Ideal) m ρ)

end Cert.KernelIdeal.KernelValue

end
-- ==== Proof.RefRun.lean ====
/-
  The reference program's run, written out: @main of the reference is a straight line of 67 host operations once its
  three module-local functions (the variance, the select inside it, the rectifier) are unfolded at their calls. The
  line is listed in two halves — the sparse convolution up to the scatter-add, then batch normalisation and the
  rectifier — and what each half leaves in the buffers is read back as a composed term of what it started from:
  refConv for the first half's result, refNorm for the second half's, each argument buffer unchanged. The run
  theorem then says that every weakly fair execution of @main terminates with the result buffer at
  refNorm (refConv x kmap w) g b of the arguments' launch contents, and the seven arguments as they were.
-/
import proofs.«121788_j77799037600003_1_alg».proof.ReferenceIdeal
import proofs.«121788_j77799037600003_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sparse convolution: @main's operations up to the scatter-add (%0 … %16), in order. -/
abbrev opsA : List (HloOp τ sig (Elt F)) :=
  [ unary main_arg3 main_v0 ((extractStridedSlice S27x65536x1 ![0, 0, 0] · slices_S27x65536x2_S27x65536x1_0_0_0) : (⟨S27x65536x2, .i32⟩ : BufTy).Contents (Elt F) → (⟨S27x65536x1, .i32⟩ : BufTy).Contents (Elt F)),
    reshape main_v0 main_v1 rfl shapeCasts_S27x65536x1_S27x65536,
    unary main_arg3 main_v2 ((extractStridedSlice S27x65536x1 ![0, 0, 1] · slices_S27x65536x2_S27x65536x1_0_0_1) : (⟨S27x65536x2, .i32⟩ : BufTy).Contents (Elt F) → (⟨S27x65536x1, .i32⟩ : BufTy).Contents (Elt F)),
    reshape main_v2 main_v3 rfl shapeCasts_S27x65536x1_S27x65536,
    nullary main_c (constantI S_ 32 0#32),
    unary main_c main_v4 (broadcastInDim S27x65536 ![] bcast_S_S27x65536 : (⟨S_, .i32⟩ : BufTy).Contents (Elt F) → (⟨S27x65536, .i32⟩ : BufTy).Contents (Elt F)),
    binary main_v1 main_v4 main_v5 (cmpi .slt : (⟨S27x65536, .i32⟩ : BufTy).Contents (Elt F) → (⟨S27x65536, .i32⟩ : BufTy).Contents (Elt F) → (⟨S27x65536, .i1⟩ : BufTy).Contents (Elt F)),
    nullary main_c_0 (constantI S_ 32 262144#32),
    unary main_c_0 main_v6 (broadcastInDim S27x65536 ![] bcast_S_S27x65536 : (⟨S_, .i32⟩ : BufTy).Contents (Elt F) → (⟨S27x65536, .i32⟩ : BufTy).Contents (Elt F)),
    binary main_v1 main_v6 main_v7 (addi : (⟨S27x65536, .i32⟩ : BufTy).Contents (Elt F) → (⟨S27x65536, .i32⟩ : BufTy).Contents (Elt F) → (⟨S27x65536, .i32⟩ : BufTy).Contents (Elt F)),
    ternary main_v5 main_v7 main_v1 main_v8 (select : (⟨S27x65536, .i1⟩ : BufTy).Contents (Elt F) → (⟨S27x65536, .i32⟩ : BufTy).Contents (Elt F) → (⟨S27x65536, .i32⟩ : BufTy).Contents (Elt F) → (⟨S27x65536, .i32⟩ : BufTy).Contents (Elt F)),
    unary main_v8 main_v9 (broadcastInDim S27x65536x1 ![0, 1] bcast_S27x65536_S27x65536x1_0_1 : (⟨S27x65536, .i32⟩ : BufTy).Contents (Elt F) → (⟨S27x65536x1, .i32⟩ : BufTy).Contents (Elt F)),
    binary main_arg0 main_v9 main_v10 ((fun x i => Host.gather gather_S262144x64_S27x65536x1_S27x65536x64_2_0_n_n_0_2_164 x i) : (⟨S262144x64, .f32⟩ : BufTy).Contents (Elt F) → (⟨S27x65536x1, .i32⟩ : BufTy).Contents (Elt F) → (⟨S27x65536x64, .f32⟩ : BufTy).Contents (Elt F)),
    binary main_v10 main_arg4 main_v11 ((fun l r => Host.dotGeneral dot_S27x65536x64_S27x64x64_S27x65536x64_2_1_1_2_0_0 none l r) : (⟨S27x65536x64, .f32⟩ : BufTy).Contents (Elt F) → (⟨S27x64x64, .f32⟩ : BufTy).Contents (Elt F) → (⟨S27x65536x64, .f32⟩ : BufTy).Contents (Elt F)),
    reshape main_v11 main_v12 rfl shapeCasts_S27x65536x64_S1769472x64,
    reshape main_v3 main_v13 rfl shapeCasts_S27x65536_S1769472,
    nullary main_cst (constant S_ .f32 0x00000000#32),
    unary main_cst main_v14 (broadcastInDim S262144x64 ![] bcast_S_S262144x64 : (⟨S_, .f32⟩ : BufTy).Contents (Elt F) → (⟨S262144x64, .f32⟩ : BufTy).Contents (Elt F)),
    unary main_v13 main_v15 (broadcastInDim S1769472x1 ![0] bcast_S1769472_S1769472x1_0 : (⟨S1769472, .i32⟩ : BufTy).Contents (Elt F) → (⟨S1769472x1, .i32⟩ : BufTy).Contents (Elt F)),
    ternary main_v14 main_v15 main_v12 main_v16 ((fun x i u => Host.scatterAdd scatter_S262144x64_S1769472x1_S1769472x64_1_0_0_1 x i u) : (⟨S262144x64, .f32⟩ : BufTy).Contents (Elt F) → (⟨S1769472x1, .i32⟩ : BufTy).Contents (Elt F) → (⟨S1769472x64, .f32⟩ : BufTy).Contents (Elt F) → (⟨S262144x64, .f32⟩ : BufTy).Contents (Elt F)) ]

/-- Batch normalisation and the rectifier: @main's operations after the scatter-add (%cst_1 … %36), in order, the
    variance function's, its select function's and the rectifier function's operations listed at their call
    sites over the calls' own buffers. -/
abbrev opsB : List (HloOp τ sig (Elt F)) :=
  [ nullary main_cst_1 (constant S_ .f32 0x00000000#32),
    binary main_v16 main_cst_1 main_v17 ((fun x v => Host.reduceAdd x v reducesTo_S262144x64_S64_d0 h_S_) : (⟨S262144x64, .f32⟩ : BufTy).Contents (Elt F) → (⟨S_, .f32⟩ : BufTy).Contents (Elt F) → (⟨S64, .f32⟩ : BufTy).Contents (Elt F)),
    nullary main_cst_2 (constant S_ .f32 0x48800000#32),
    unary main_cst_2 main_v18 (broadcastInDim S64 ![] bcast_S_S64 : (⟨S_, .f32⟩ : BufTy).Contents (Elt F) → (⟨S64, .f32⟩ : BufTy).Contents (Elt F)),
    binary main_v17 main_v18 main_v19 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v16 : TRef sig ⟨S262144x64, .f32⟩) main_call0.cst main_call0.v0 (fun x v => Host.reduceAdd x v reducesTo_S262144x64_S64_d0 h_S_),
    TRef.unary main_call0.v0 main_call0.v1 (broadcastInDim S1x64 ![1] bcast_S64_S1x64_1),
    TRef.nullary main_call0.cst_0 (constant S_ .f32 0x48800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S262144x64 ![0, 1] bcast_S1x64_S262144x64_0_1),
    TRef.binary (.of main_v16 : TRef sig ⟨S262144x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S262144x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v19 main_v21 (broadcastInDim S1x64 ![1] bcast_S64_S1x64_1 : (⟨S64, .f32⟩ : BufTy).Contents (Elt F) → (⟨S1x64, .f32⟩ : BufTy).Contents (Elt F)),
    unary main_v21 main_v22 (broadcastInDim S262144x64 ![0, 1] bcast_S1x64_S262144x64_0_1 : (⟨S1x64, .f32⟩ : BufTy).Contents (Elt F) → (⟨S262144x64, .f32⟩ : BufTy).Contents (Elt F)),
    binary main_v16 main_v22 main_v23 (subf : (⟨S262144x64, .f32⟩ : BufTy).Contents (Elt F) → (⟨S262144x64, .f32⟩ : BufTy).Contents (Elt F) → (⟨S262144x64, .f32⟩ : BufTy).Contents (Elt F)),
    nullary main_cst_4 (constant S_ .f32 0x3727C5AC#32),
    unary main_cst_4 main_v24 (broadcastInDim S64 ![] bcast_S_S64 : (⟨S_, .f32⟩ : BufTy).Contents (Elt F) → (⟨S64, .f32⟩ : BufTy).Contents (Elt F)),
    binary main_v20 main_v24 main_v25 (addf : (⟨S64, .f32⟩ : BufTy).Contents (Elt F) → (⟨S64, .f32⟩ : BufTy).Contents (Elt F) → (⟨S64, .f32⟩ : BufTy).Contents (Elt F)),
    unary main_v25 main_v26 (Host.rsqrt : (⟨S64, .f32⟩ : BufTy).Contents (Elt F) → (⟨S64, .f32⟩ : BufTy).Contents (Elt F)),
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S262144x64 ![0, 1] bcast_S1x64_S262144x64_0_1 : (⟨S1x64, .f32⟩ : BufTy).Contents (Elt F) → (⟨S262144x64, .f32⟩ : BufTy).Contents (Elt F)),
    binary main_v23 main_v28 main_v29 (mulf : (⟨S262144x64, .f32⟩ : BufTy).Contents (Elt F) → (⟨S262144x64, .f32⟩ : BufTy).Contents (Elt F) → (⟨S262144x64, .f32⟩ : BufTy).Contents (Elt F)),
    unary main_arg5 main_v30 (broadcastInDim S1x64 ![1] bcast_S64_S1x64_1 : (⟨S64, .f32⟩ : BufTy).Contents (Elt F) → (⟨S1x64, .f32⟩ : BufTy).Contents (Elt F)),
    unary main_v30 main_v31 (broadcastInDim S262144x64 ![0, 1] bcast_S1x64_S262144x64_0_1 : (⟨S1x64, .f32⟩ : BufTy).Contents (Elt F) → (⟨S262144x64, .f32⟩ : BufTy).Contents (Elt F)),
    binary main_v29 main_v31 main_v32 (mulf : (⟨S262144x64, .f32⟩ : BufTy).Contents (Elt F) → (⟨S262144x64, .f32⟩ : BufTy).Contents (Elt F) → (⟨S262144x64, .f32⟩ : BufTy).Contents (Elt F)),
    unary main_arg6 main_v33 (broadcastInDim S1x64 ![1] bcast_S64_S1x64_1 : (⟨S64, .f32⟩ : BufTy).Contents (Elt F) → (⟨S1x64, .f32⟩ : BufTy).Contents (Elt F)),
    unary main_v33 main_v34 (broadcastInDim S262144x64 ![0, 1] bcast_S1x64_S262144x64_0_1 : (⟨S1x64, .f32⟩ : BufTy).Contents (Elt F) → (⟨S262144x64, .f32⟩ : BufTy).Contents (Elt F)),
    binary main_v32 main_v34 main_v35 (addf : (⟨S262144x64, .f32⟩ : BufTy).Contents (Elt F) → (⟨S262144x64, .f32⟩ : BufTy).Contents (Elt F) → (⟨S262144x64, .f32⟩ : BufTy).Contents (Elt F)),
    TRef.nullary main_call1.cst (constant S_ .f32 0x00000000#32),
    TRef.unary main_call1.cst main_call1.v0 (broadcastInDim S262144x64 ![] bcast_S_S262144x64),
    TRef.binary (.of main_v35 : TRef sig ⟨S262144x64, .f32⟩) main_call1.v0 main_call1.v1 maximumf ]

/-- @main's 67 operations, in order. -/
abbrev ops : List (HloOp τ sig (Elt F)) := opsA ++ opsB

set_option maxRecDepth 8192 in
set_option maxHeartbeats 4000000 in
/-- @main is that straight line: the three functions' definitions unfolded at their calls, both sides are one chain of
    steps once sequencing is reassociated. -/
theorem main_eq (c : Dev nD) : main (F := F) c = seq ops := by
  simp only [main, fn_var.body, fn_where.body, fn_relu.body, ops, opsA, opsB, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., reshape_bufs_sub .., nullary_bufs_sub .., unary_bufs_sub .., unary_bufs_sub .., ternary_bufs_sub ..⟩
set_option maxRecDepth 8192 in
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp opsA_sub op h, List.forall_iff_forall_mem.mp opsB_sub op h]

/-! ## The composed terms -/

/-- The first column of the kernel map, one entry per offset and pair (%1): the input row of each pair. -/
def refIdx0 (kmap : IVec S27x65536x2 32) : IVec S27x65536 32 :=
  shapeCast S27x65536 (extractStridedSlice S27x65536x1 ![0, 0, 0] kmap slices_S27x65536x2_S27x65536x1_0_0_0)
    shapeCasts_S27x65536x1_S27x65536

/-- The second column of the kernel map (%3): the output row of each pair. -/
def refIdx1 (kmap : IVec S27x65536x2 32) : IVec S27x65536 32 :=
  shapeCast S27x65536 (extractStridedSlice S27x65536x1 ![0, 0, 1] kmap slices_S27x65536x2_S27x65536x1_0_0_1)
    shapeCasts_S27x65536x1_S27x65536

/-- The gather's start indices (%9): the input rows, a negative one moved up by the row count 262144, as a column. -/
def refInIdx (kmap : IVec S27x65536x2 32) : IVec S27x65536x1 32 :=
  broadcastInDim S27x65536x1 ![0, 1] bcast_S27x65536_S27x65536x1_0_1
    (select (cmpi .slt (refIdx0 kmap) (broadcastInDim S27x65536 ![] bcast_S_S27x65536 (constantI S_ 32 0#32)))
      (addi (refIdx0 kmap) (broadcastInDim S27x65536 ![] bcast_S_S27x65536 (constantI S_ 32 262144#32)))
      (refIdx0 kmap))

/-- The scatter's indices (%15): the output rows of all 27 × 65536 pairs in row-major order, as a column. -/
def refOutIdx (kmap : IVec S27x65536x2 32) : IVec S1769472x1 32 :=
  broadcastInDim S1769472x1 ![0] bcast_S1769472_S1769472x1_0
    (shapeCast S1769472 (refIdx1 kmap) shapeCasts_S27x65536_S1769472)

/-- The sparse convolution (%16): the input rows gathered per offset, each offset's rows times its 64 × 64 weight,
    the products added into the zero array at the output rows. -/
def refConv (x : FVec F S262144x64 .f32) (kmap : IVec S27x65536x2 32) (w : FVec F S27x64x64 .f32) : FVec F S262144x64 .f32 :=
  Host.scatterAdd scatter_S262144x64_S1769472x1_S1769472x64_1_0_0_1
    (broadcastInDim S262144x64 ![] bcast_S_S262144x64 (constant S_ .f32 0x00000000#32))
    (refOutIdx kmap)
    (shapeCast S1769472x64
      (Host.dotGeneral dot_S27x65536x64_S27x64x64_S27x65536x64_2_1_1_2_0_0 none
        (Host.gather gather_S262144x64_S27x65536x1_S27x65536x64_2_0_n_n_0_2_164 x (refInIdx kmap)) w)
      shapeCasts_S27x65536x64_S1769472x64)

/-- The per-channel mean (%19): the column sums from zero, over 262144. -/
def refMean (out : FVec F S262144x64 .f32) : FVec F S64 .f32 :=
  Host.divf (Host.reduceAdd out (constant S_ .f32 0x00000000#32) reducesTo_S262144x64_S64_d0 h_S_)
    (broadcastInDim S64 ![] bcast_S_S64 (constant S_ .f32 0x48800000#32))

/-- The variance function's own mean, kept as a row (its %3). -/
def refVarMean (out : FVec F S262144x64 .f32) : FVec F S1x64 .f32 :=
  Host.divf (broadcastInDim S1x64 ![1] bcast_S64_S1x64_1 (Host.reduceAdd out (constant S_ .f32 0x00000000#32) reducesTo_S262144x64_S64_d0 h_S_))
    (broadcastInDim S1x64 ![] bcast_S_S1x64 (constant S_ .f32 0x48800000#32))

/-- The deviations from that mean (the variance function's %5). -/
def refVarCen (out : FVec F S262144x64 .f32) : FVec F S262144x64 .f32 :=
  subf out (broadcastInDim S262144x64 ![0, 1] bcast_S1x64_S262144x64_0_1 (refVarMean out))

/-- The variance's divisor (its %8): 262144 minus the correction 0 converted to a float. -/
def refVarN : FVec F S_ .f32 :=
  subf (constant S_ .f32 0x48800000#32) (sitofp .f32 (constantI S_ 32 0#32))

/-- The per-channel variance (%20): the column sums of the squared deviations over the divisor where the divisor is
    positive, the quiet not-a-number otherwise. -/
def refVar (out : FVec F S262144x64 .f32) : FVec F S64 .f32 :=
  select (broadcastInDim S64 ![] bcast_S_S64 (cmpf .ogt (refVarN (F := F)) (constant S_ .f32 0x00000000#32)))
    (Host.divf (Host.reduceAdd (mulf (refVarCen out) (refVarCen out)) (constant S_ .f32 0x00000000#32) reducesTo_S262144x64_S64_d0 h_S_)
      (broadcastInDim S64 ![] bcast_S_S64 (refVarN (F := F))))
    (broadcastInDim S64 ![] bcast_S_S64 (id (constant S_ .f32 0x7FC00000#32)))

/-- Batch normalisation and the rectifier (%36) of the convolution's output, with scale g and shift b. -/
def refNorm (out : FVec F S262144x64 .f32) (g b : FVec F S64 .f32) : FVec F S262144x64 .f32 :=
  maximumf
    (addf
      (mulf
        (mulf (subf out (broadcastInDim S262144x64 ![0, 1] bcast_S1x64_S262144x64_0_1 (broadcastInDim S1x64 ![1] bcast_S64_S1x64_1 (refMean out))))
          (broadcastInDim S262144x64 ![0, 1] bcast_S1x64_S262144x64_0_1 (broadcastInDim S1x64 ![1] bcast_S64_S1x64_1 (Host.rsqrt (addf (refVar out) (broadcastInDim S64 ![] bcast_S_S64 (constant S_ .f32 0x3727C5AC#32)))))))
        (broadcastInDim S262144x64 ![0, 1] bcast_S1x64_S262144x64_0_1 (broadcastInDim S1x64 ![1] bcast_S64_S1x64_1 g)))
      (broadcastInDim S262144x64 ![0, 1] bcast_S1x64_S262144x64_0_1 (broadcastInDim S1x64 ![1] bcast_S64_S1x64_1 b)))
    (broadcastInDim S262144x64 ![] bcast_S_S262144x64 (constant S_ .f32 0x00000000#32))

/-! ## What the two halves leave in the buffers -/

attribute [local irreducible] Host.gather Host.scatterAdd Host.reduceAdd in
set_option maxRecDepth 8192 in
set_option maxHeartbeats 2000000 in
/-- After the first half the scatter-add's buffer holds the convolution of the three arguments it reads. -/
theorem afterA_v16 (V : Valuation τ sig (Elt F)) :
    after opsA V (main_v16 : DevRef τ sig)
      = refConv (V (main_arg0 : DevRef τ sig)) (V (main_arg3 : DevRef τ sig)) (V (main_arg4 : DevRef τ sig)) := by
  after_results_simp
  rfl

/-! The first half writes none of the seven arguments. -/

set_option maxRecDepth 8192 in
set_option maxHeartbeats 2000000 in
theorem afterA_arg0 (V : Valuation τ sig (Elt F)) : after opsA V (main_arg0 : DevRef τ sig) = V (main_arg0 : DevRef τ sig) := by
  after_results_simp

set_option maxRecDepth 8192 in
set_option maxHeartbeats 2000000 in
theorem afterA_arg1 (V : Valuation τ sig (Elt F)) : after opsA V (main_arg1 : DevRef τ sig) = V (main_arg1 : DevRef τ sig) := by
  after_results_simp

set_option maxRecDepth 8192 in
set_option maxHeartbeats 2000000 in
theorem afterA_arg2 (V : Valuation τ sig (Elt F)) : after opsA V (main_arg2 : DevRef τ sig) = V (main_arg2 : DevRef τ sig) := by
  after_results_simp

set_option maxRecDepth 8192 in
set_option maxHeartbeats 2000000 in
theorem afterA_arg3 (V : Valuation τ sig (Elt F)) : after opsA V (main_arg3 : DevRef τ sig) = V (main_arg3 : DevRef τ sig) := by
  after_results_simp

set_option maxRecDepth 8192 in
set_option maxHeartbeats 2000000 in
theorem afterA_arg4 (V : Valuation τ sig (Elt F)) : after opsA V (main_arg4 : DevRef τ sig) = V (main_arg4 : DevRef τ sig) := by
  after_results_simp

set_option maxRecDepth 8192 in
set_option maxHeartbeats 2000000 in
theorem afterA_arg5 (V : Valuation τ sig (Elt F)) : after opsA V (main_arg5 : DevRef τ sig) = V (main_arg5 : DevRef τ sig) := by
  after_results_simp

set_option maxRecDepth 8192 in
set_option maxHeartbeats 2000000 in
theorem afterA_arg6 (V : Valuation τ sig (Elt F)) : after opsA V (main_arg6 : DevRef τ sig) = V (main_arg6 : DevRef τ sig) := by
  after_results_simp

attribute [local irreducible] Host.reduceAdd Host.divf Host.rsqrt in
set_option maxRecDepth 8192 in
set_option maxHeartbeats 4000000 in
/-- After the second half, from any contents, the rectifier's buffer holds the normalisation of what the
    scatter-add's buffer held, scaled and shifted by the last two arguments. -/
theorem afterB_v36 (W : Valuation τ sig (Elt F)) :
    after opsB W (main_v36 : DevRef τ sig)
      = refNorm (W (main_v16 : DevRef τ sig)) (W (main_arg5 : DevRef τ sig)) (W (main_arg6 : DevRef τ sig)) := by
  after_results_simp
  rfl

/-! The second half writes none of the seven arguments. -/

set_option maxRecDepth 8192 in
set_option maxHeartbeats 2000000 in
theorem afterB_arg0 (V : Valuation τ sig (Elt F)) : after opsB V (main_arg0 : DevRef τ sig) = V (main_arg0 : DevRef τ sig) := by
  after_results_simp

set_option maxRecDepth 8192 in
set_option maxHeartbeats 2000000 in
theorem afterB_arg1 (V : Valuation τ sig (Elt F)) : after opsB V (main_arg1 : DevRef τ sig) = V (main_arg1 : DevRef τ sig) := by
  after_results_simp

set_option maxRecDepth 8192 in
set_option maxHeartbeats 2000000 in
theorem afterB_arg2 (V : Valuation τ sig (Elt F)) : after opsB V (main_arg2 : DevRef τ sig) = V (main_arg2 : DevRef τ sig) := by
  after_results_simp

set_option maxRecDepth 8192 in
set_option maxHeartbeats 2000000 in
theorem afterB_arg3 (V : Valuation τ sig (Elt F)) : after opsB V (main_arg3 : DevRef τ sig) = V (main_arg3 : DevRef τ sig) := by
  after_results_simp

set_option maxRecDepth 8192 in
set_option maxHeartbeats 2000000 in
theorem afterB_arg4 (V : Valuation τ sig (Elt F)) : after opsB V (main_arg4 : DevRef τ sig) = V (main_arg4 : DevRef τ sig) := by
  after_results_simp

set_option maxRecDepth 8192 in
set_option maxHeartbeats 2000000 in
theorem afterB_arg5 (V : Valuation τ sig (Elt F)) : after opsB V (main_arg5 : DevRef τ sig) = V (main_arg5 : DevRef τ sig) := by
  after_results_simp

set_option maxRecDepth 8192 in
set_option maxHeartbeats 2000000 in
theorem afterB_arg6 (V : Valuation τ sig (Elt F)) : after opsB V (main_arg6 : DevRef τ sig) = V (main_arg6 : DevRef τ sig) := by
  after_results_simp

/-! ## The whole line -/

/-- The contents after two lines in a row are the second line's from the first line's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after opsB (after opsA V) :=
  after_app opsA opsB V

theorem after_ops_v36 (V : Valuation τ sig (Elt F)) :
    after ops V (main_v36 : DevRef τ sig)
      = refNorm (refConv (V (main_arg0 : DevRef τ sig)) (V (main_arg3 : DevRef τ sig)) (V (main_arg4 : DevRef τ sig)))
          (V (main_arg5 : DevRef τ sig)) (V (main_arg6 : DevRef τ sig)) := by
  rw [after_ops, afterB_v36, afterA_v16, afterA_arg5, afterA_arg6]

theorem after_ops_arg0 (V : Valuation τ sig (Elt F)) : after ops V (main_arg0 : DevRef τ sig) = V (main_arg0 : DevRef τ sig) := by
  rw [after_ops, afterB_arg0, afterA_arg0]

theorem after_ops_arg1 (V : Valuation τ sig (Elt F)) : after ops V (main_arg1 : DevRef τ sig) = V (main_arg1 : DevRef τ sig) := by
  rw [after_ops, afterB_arg1, afterA_arg1]

theorem after_ops_arg2 (V : Valuation τ sig (Elt F)) : after ops V (main_arg2 : DevRef τ sig) = V (main_arg2 : DevRef τ sig) := by
  rw [after_ops, afterB_arg2, afterA_arg2]

theorem after_ops_arg3 (V : Valuation τ sig (Elt F)) : after ops V (main_arg3 : DevRef τ sig) = V (main_arg3 : DevRef τ sig) := by
  rw [after_ops, afterB_arg3, afterA_arg3]

theorem after_ops_arg4 (V : Valuation τ sig (Elt F)) : after ops V (main_arg4 : DevRef τ sig) = V (main_arg4 : DevRef τ sig) := by
  rw [after_ops, afterB_arg4, afterA_arg4]

theorem after_ops_arg5 (V : Valuation τ sig (Elt F)) : after ops V (main_arg5 : DevRef τ sig) = V (main_arg5 : DevRef τ sig) := by
  rw [after_ops, afterB_arg5, afterA_arg5]

theorem after_ops_arg6 (V : Valuation τ sig (Elt F)) : after ops V (main_arg6 : DevRef τ sig) = V (main_arg6 : DevRef τ sig) := by
  rw [after_ops, afterB_arg6, afterA_arg6]

/-! ## The run -/

/-- On every device, for any float values, from any memory with zero counters: every weakly fair execution of
    @main terminates with the result buffer at the normalisation of the convolution of the arguments' launch
    contents, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = refNorm (refConv (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v36).trans (after_ops_v36 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c))⟩)
    (run_seq scopedRefs_eq scopedSems_eq defs main (fun _ => ops) main_eq (fun _ => ops_sub) m ρ)

end Cert.ReferenceIdeal.RefRun

end
-- ==== Proof.GemmRef.lean ====
/-
  The reference's batched dot_general, read entry by entry over the extended reals, is the batched matrix product:
  entry (k, p, d) is the sum over e of l[k, p, e] · r[k, e, d].
-/
import proofs.«121788_j77799037600003_1_alg».proof.ReferenceIdeal
import proofs.«121788_j77799037600003_1_alg».proof.Proof.Spec
import Idealize.ShloMosaic.Lib.ValueIdx
import Idealize.ShloMosaic.PureOps.Ideal.Laws

noncomputable section

open scoped BigOperators

namespace Cert.GemmRef

open Idealize.ShloMosaic Idealize.ShloMosaic.ValueIdx Cert.ReferenceIdeal

variable [Cert.ReferenceIdeal.Facts]

/-- The dimension numbers contract one axis. -/
theorem contr_rank : dot_S27x65536x64_S27x64x64_S27x65536x64_2_1_1_2_0_0.contr.rank = 1 := rfl

/-- The contracted axis has 64 entries. -/
theorem contr_size : dot_S27x65536x64_S27x64x64_S27x65536x64_2_1_1_2_0_0.contr.size ⟨0, by rw [contr_rank]; exact Nat.one_pos⟩ = 64 := rfl

/-- The reference's dot_general (batch axis 0 of both operands, axis 2 of the left contracted with axis 1 of the right)
    is the batched matrix product: at output index (k, p, d) the left operand is read at (k, p, e) and the right one at
    (k, e, d), e running over the 64 contraction positions. -/
theorem dot_eq (l : FVec Ideal Cert.ReferenceIdeal.S27x65536x64 .f32) (r : FVec Ideal Cert.ReferenceIdeal.S27x64x64 .f32) :
    Host.dotGeneral (F := Ideal) Cert.ReferenceIdeal.dot_S27x65536x64_S27x64x64_S27x65536x64_2_1_1_2_0_0 none l r
      = Cert.Spec.gemmG l r := by
  funext j
  simp only [Host.dotGeneral]
  rw [Ideal.dotGeneral_apply]
  show _ = ∑ e : Fin 64, l (ix3 (j 0) (j 1) e) * r (ix3 (j 0) e (j 2))
  rw [← Equiv.sum_comp (contrEquiv1 dot_S27x65536x64_S27x64x64_S27x65536x64_2_1_1_2_0_0 64 contr_rank contr_size).symm]
  refine Finset.sum_congr rfl fun e _ => ?_
  have hl : dot_S27x65536x64_S27x64x64_S27x65536x64_2_1_1_2_0_0.lhsIdx j
      ((contrEquiv1 dot_S27x65536x64_S27x64x64_S27x65536x64_2_1_1_2_0_0 64 contr_rank contr_size).symm e)
      = ix3 (j 0) (j 1) e := by
    funext a
    match a with
    | ⟨0, _⟩ => exact Fin.ext rfl
    | ⟨1, _⟩ => exact Fin.ext rfl
    | ⟨2, _⟩ =>
      refine Fin.ext ?_
      exact (DotDims.lhsIdx_val_of_single _ (cl := (2 : Fin 3)) rfl j _).trans (contrEquiv1_symm_val _ 64 contr_rank contr_size e)
  have hr : dot_S27x65536x64_S27x64x64_S27x65536x64_2_1_1_2_0_0.rhsIdx j
      ((contrEquiv1 dot_S27x65536x64_S27x64x64_S27x65536x64_2_1_1_2_0_0 64 contr_rank contr_size).symm e)
      = ix3 (j 0) e (j 2) := by
    funext a
    match a with
    | ⟨0, _⟩ => exact Fin.ext rfl
    | ⟨2, _⟩ => exact Fin.ext rfl
    | ⟨1, _⟩ =>
      refine Fin.ext ?_
      exact (DotDims.rhsIdx_val_of_single _ (cr := (1 : Fin 3)) rfl j _).trans (contrEquiv1_symm_val _ 64 contr_rank contr_size e)
  exact congrArg₂ (· * ·) (congrArg l hl) (congrArg r hr)

end Cert.GemmRef

end
-- ==== Proof.ConvBridge.lean ====
/-
  The two programs compute the same scattered products.  Both gather the same rows, by the same start indices; the
  reference multiplies them by the weights in one batched contraction, which entry by entry is the sum the kernel's
  matrix unit forms block by block (a change of float format on the way in is the identity on extended reals); both
  flatten the products and add them onto a zero array at the same rows.
-/
import proofs.«121788_j77799037600003_1_alg».proof.Proof.KernelChain
import proofs.«121788_j77799037600003_1_alg».proof.Proof.RefRun
import proofs.«121788_j77799037600003_1_alg».proof.Proof.GemmRef
import proofs.«121788_j77799037600003_1_alg».proof.Proof.Spec

noncomputable section

namespace Cert.ConvBridge

open Idealize.ShloMosaic

/-- The reference's convolution array is the kernel program's scattered array of products. -/
theorem conv_eq (x : FVec Ideal Cert.ReferenceIdeal.S262144x64 .f32) (kmap : IVec Cert.ReferenceIdeal.S27x65536x2 32)
    (w : FVec Ideal Cert.ReferenceIdeal.S27x64x64 .f32) :
    Cert.ReferenceIdeal.RefRun.refConv (F := Ideal) x kmap w
      = Cert.KernelIdeal.Chain.scattered (F := Ideal) kmap
          (Cert.Spec.gemmG (truncf .bf16 (Cert.KernelIdeal.Chain.gathered (F := Ideal) x kmap) Cert.KernelIdeal.Gen.bitsLt_bf16_f32)
            (truncf .bf16 w Cert.KernelIdeal.Gen.bitsLt_bf16_f32)) := by
  unfold Cert.ReferenceIdeal.RefRun.refConv
  rw [Cert.GemmRef.dot_eq]
  rfl

end Cert.ConvBridge

end
-- ==== Proof.RefNormApply.lean ====
/-
  The reference's normalisation read at one entry, at the ideal values. refNorm out g b is batch normalisation over
  the 262144 rows followed by the rectifier; here its value at row r and column d is written with ordinary sums:
  the column's mean colMean out d = (0 + Σ over rows of out) / 262144, the column's variance
  colVar out d = (0 + Σ over rows of (out - mean)²) / 262144 (the divisor 262144 - 0 is positive, so the guard
  on it selects the quotient, never the not-a-number), and
  refNorm out g b (r, d) = max ((out (r, d) - mean) * rsqrt (var + c) * g d + b d) 0 with c the pattern 0x3727C5AC.
-/
import proofs.«121788_j77799037600003_1_alg».proof.Proof.RefRun
import Idealize.ShloMosaic.Lib.IdealHost
import Idealize.ShloMosaic.Lib.Pipeline.Value

noncomputable section

namespace Cert.ReferenceIdeal.RefRun

open Cert.ReferenceIdeal Cert.ReferenceIdeal.Gen Idealize.ShloMosaic Idealize.ShloMosaic.ValueIdx
open scoped BigOperators

/-- Summing a 262144 × 64 array over its rows leaves its 64 columns. -/
theorem reduces_rows : S262144x64.Reduces [0] S64 := by decide

/-- The pattern 0x48800000 is the real 2 ^ 18 = 262144. -/
theorem ofBits_rows_f32 : Ideal.ofBits .f32 0x48800000#32 = ((262144 : ℝ) : EReal) := by
  simp [Ideal.ofBits, Ideal.ieee, -EReal.coe_mul]; norm_num

/-- The host's column sum from zero, at a column: zero plus the sum of the column's 262144 entries. -/
theorem colSum_apply (x : FVec Ideal S262144x64 .f32) (d : Fin 64) :
    Host.reduceAdd x (constant S_ .f32 0x00000000#32) reducesTo_S262144x64_S64_d0 h_S_ (ix1 d)
      = 0 + ∑ r : Fin 262144, x (ix2 r d) := by
  rw [hostReduceAdd_apply, Ideal.hostReduceAdd_single _ reduces_rows, constant_apply, Ideal.ofBits_zero_f32]
  refine congrArg (fun s => (0 : EReal) + s) (Finset.sum_congr rfl fun k _ => congrArg x ?_)
  funext c
  match c with
  | ⟨0, _⟩ => rfl
  | ⟨1, _⟩ => rfl

/-- A row of 64 spread over the 262144 rows reads, at any row, its own column. -/
theorem bcRows_apply {α : Type} (x : S1x64.Idx → α) (r : Fin 262144) (d : Fin 64) :
    broadcastInDim S262144x64 ![0, 1] bcast_S1x64_S262144x64_0_1 x (ix2 r d) = x (ix2 0 d) := by
  refine broadcastInDim_apply _ _ x _ _ fun a => ?_
  match a with
  | ⟨0, _⟩ => rfl
  | ⟨1, _⟩ => rfl

/-- 64 values laid out as one row read, at that row, the value of the column. -/
theorem bcRow_apply {α : Type} (x : S64.Idx → α) (d : Fin 64) :
    broadcastInDim S1x64 ![1] bcast_S64_S1x64_1 x (ix2 0 d) = x (ix1 d) := by
  refine broadcastInDim_apply _ _ x _ _ fun a => ?_
  match a with
  | ⟨0, _⟩ => rfl

/-- The mean of a column: zero plus the sum of its 262144 entries, over 262144. -/
def colMean (out : FVec Ideal S262144x64 .f32) (d : Fin 64) : EReal :=
  Ideal.div (0 + ∑ r : Fin 262144, out (ix2 r d)) ((262144 : ℝ) : EReal)

/-- The variance of a column: zero plus the sum of the squared deviations from its mean, over 262144. -/
def colVar (out : FVec Ideal S262144x64 .f32) (d : Fin 64) : EReal :=
  Ideal.div (0 + ∑ r : Fin 262144, (out (ix2 r d) - colMean out d) * (out (ix2 r d) - colMean out d))
    ((262144 : ℝ) : EReal)

theorem refMean_apply (out : FVec Ideal S262144x64 .f32) (d : Fin 64) : refMean out (ix1 d) = colMean out d := by
  unfold refMean colMean
  rw [hostDivf_apply, colSum_apply, broadcastInDim_scalar_apply, constant_apply, ofBits_rows_f32]

theorem refVarMean_apply (out : FVec Ideal S262144x64 .f32) (d : Fin 64) : refVarMean out (ix2 0 d) = colMean out d := by
  unfold refVarMean colMean
  rw [hostDivf_apply, bcRow_apply, colSum_apply, broadcastInDim_scalar_apply, constant_apply, ofBits_rows_f32]

theorem refVarCen_apply (out : FVec Ideal S262144x64 .f32) (r : Fin 262144) (d : Fin 64) :
    refVarCen out (ix2 r d) = out (ix2 r d) - colMean out d := by
  unfold refVarCen
  rw [subf_apply, bcRows_apply, refVarMean_apply]

/-- The variance's divisor is 262144 - 0 = 262144. -/
theorem refVarN_apply : refVarN (F := Ideal) ix0 = ((262144 : ℝ) : EReal) := by
  unfold refVarN
  rw [subf_apply, constant_apply, ofBits_rows_f32, sitofp_apply]
  show ((262144 : ℝ) : EReal) - (((0#32 : BitVec 32).toInt : ℝ) : EReal) = ((262144 : ℝ) : EReal)
  rw [← EReal.coe_sub]
  norm_num

/-- 262144 is greater than zero, so the comparison that guards the variance holds. -/
theorem cmp_rows_pos : Ideal.cmp .ogt ((262144 : ℝ) : EReal) 0 = 1#1 := by
  have h : (0 : EReal) < ((262144 : ℝ) : EReal) := EReal.coe_pos.mpr (by norm_num)
  simp [Ideal.cmp, h]

/-- The host's reciprocal square root at an index is the ideal one of the element. -/
theorem hostRsqrt_apply {s : Shape} {φ : FTy} (x : FVec Ideal s φ) (i : s.Idx) : Host.rsqrt x i = Ideal.rsqrt (x i) := rfl

theorem refVar_apply (out : FVec Ideal S262144x64 .f32) (d : Fin 64) : refVar out (ix1 d) = colVar out d := by
  unfold refVar colVar
  rw [select_apply, broadcastInDim_scalar_apply, cmpf_apply, refVarN_apply, constant_apply, Ideal.ofBits_zero_f32,
    Ideal.cmpf_def, cmp_rows_pos, select_one, hostDivf_apply, colSum_apply, broadcastInDim_scalar_apply, refVarN_apply]
  simp only [mulf_apply, refVarCen_apply]

/-- The reference's result at row r and column d: the entry less its column's mean, times the reciprocal square root
    of the column's variance plus the constant 0x3727C5AC, times the scale and plus the shift of the column, or zero
    if that is negative. -/
theorem refNorm_apply (out : FVec Ideal S262144x64 .f32) (g b : FVec Ideal S64 .f32) (r : Fin 262144) (d : Fin 64) :
    refNorm out g b (ix2 r d)
      = max ((out (ix2 r d) - colMean out d) * Ideal.rsqrt (colVar out d + Ideal.ofBits .f32 0x3727C5AC#32) * g (ix1 d)
          + b (ix1 d)) 0 := by
  unfold refNorm
  rw [maximumf_apply, addf_apply, mulf_apply, mulf_apply, subf_apply, bcRows_apply, bcRows_apply, bcRows_apply, bcRows_apply,
    bcRow_apply, bcRow_apply, bcRow_apply, bcRow_apply, refMean_apply, hostRsqrt_apply, addf_apply, refVar_apply,
    broadcastInDim_scalar_apply, broadcastInDim_scalar_apply, constant_apply, constant_apply, Ideal.ofBits_zero_f32]

end Cert.ReferenceIdeal.RefRun

end
-- ==== Proof.LibVariance.lean ====
/-
  The variance identity over the extended reals, for real data: the mean of the squares minus the square of the mean
  is the mean of the squared deviations from the mean. For real numbers x_i, i in a set of N elements, with
  S = ∑ x_i and μ = S / N: ∑ (x_i − μ)² = ∑ x_i² − 2 μ S + N μ², hence (∑ x_i²) / N − μ² = (∑ (x_i − μ)²) / N.
  Over the extended reals the identity needs the data to be real (at an infinity the subtraction does not cancel), and a
  nonzero real divisor, by which division is multiplication with the reciprocal.
-/
import Idealize.ShloMosaic.PureOps.Ideal
import Idealize.ShloMosaic.PureOps.Ideal.Laws
import Idealize.ShloMosaic.Lib.ValueIdx
import proofs.«121788_j77799037600003_1_alg».proof.Proof.Spec
import proofs.«121788_j77799037600003_1_alg».proof.Proof.LibReal

noncomputable section

open scoped BigOperators

namespace Cert.LibVariance

open Idealize.ShloMosaic Idealize.ShloMosaic.ValueIdx Cert.LibReal

/-! ## The identity over the reals -/

/-- Over the reals: with S = ∑ x_i over N elements and μ = S · (1/N),
    (∑ x_i²) · (1/N) − μ² = (∑ (x_i − μ)²) · (1/N). -/
theorem real_variance {ι : Type*} [Fintype ι] (N : ℝ) (hN : N ≠ 0) (hcard : (Fintype.card ι : ℝ) = N) (x : ι → ℝ) :
    (∑ i, x i * x i) * (1 / N) - (∑ i, x i) * (1 / N) * ((∑ i, x i) * (1 / N))
      = (∑ i, (x i - (∑ i, x i) * (1 / N)) * (x i - (∑ i, x i) * (1 / N))) * (1 / N) := by
  have hsq : ∀ m : ℝ, ∑ i, (x i - m) * (x i - m) = (∑ i, x i * x i) - 2 * m * (∑ i, x i) + N * (m * m) := by
    intro m
    have e : ∀ i, (x i - m) * (x i - m) = x i * x i - 2 * m * x i + m * m := fun i => by ring
    simp only [e]
    rw [Finset.sum_add_distrib, Finset.sum_sub_distrib, ← Finset.mul_sum, Finset.sum_const, Finset.card_univ,
      nsmul_eq_mul, hcard]
  rw [hsq]
  field_simp
  ring

/-! ## The identity over the extended reals, for real data -/

/-- For real data x_i over N elements, N a nonzero real: the mean of the squares minus the square of the mean is the
    mean of the squared deviations from the mean, every operation the extended reals'. -/
theorem variance_identity {ι : Type*} [Fintype ι] (N : ℝ) (hN : N ≠ 0) (hcard : (Fintype.card ι : ℝ) = N) (x : ι → ℝ) :
    Ideal.div (∑ i, ((x i : ℝ) : EReal) * ((x i : ℝ) : EReal)) (N : EReal)
        - Ideal.div (∑ i, ((x i : ℝ) : EReal)) (N : EReal) * Ideal.div (∑ i, ((x i : ℝ) : EReal)) (N : EReal)
      = Ideal.div (∑ i, (((x i : ℝ) : EReal) - Ideal.div (∑ i, ((x i : ℝ) : EReal)) (N : EReal))
          * (((x i : ℝ) : EReal) - Ideal.div (∑ i, ((x i : ℝ) : EReal)) (N : EReal))) (N : EReal) := by
  have hS : ∑ i, ((x i : ℝ) : EReal) = ((∑ i, x i : ℝ) : EReal) := (coe_sum _ _).symm
  have hμ : Ideal.div (∑ i, ((x i : ℝ) : EReal)) (N : EReal) = (((∑ i, x i) * (1 / N) : ℝ) : EReal) := by
    rw [hS, Ideal.div_coe hN, ← EReal.coe_mul]
  have hQ : ∑ i, ((x i : ℝ) : EReal) * ((x i : ℝ) : EReal) = ((∑ i, x i * x i : ℝ) : EReal) :=
    (Finset.sum_congr rfl fun i _ => (EReal.coe_mul (x i) (x i)).symm).trans (coe_sum _ _).symm
  rw [hμ]
  have hD : ∑ i, (((x i : ℝ) : EReal) - (((∑ i, x i) * (1 / N) : ℝ) : EReal))
        * (((x i : ℝ) : EReal) - (((∑ i, x i) * (1 / N) : ℝ) : EReal))
      = ((∑ i, (x i - (∑ i, x i) * (1 / N)) * (x i - (∑ i, x i) * (1 / N)) : ℝ) : EReal) :=
    (Finset.sum_congr rfl fun i _ => by rw [← EReal.coe_sub, ← EReal.coe_mul]).trans (coe_sum _ _).symm
  rw [hQ, hD, Ideal.div_coe hN, Ideal.div_coe hN, ← EReal.coe_mul, ← EReal.coe_mul, ← EReal.coe_mul, ← EReal.coe_sub]
  exact congrArg _ (real_variance N hN hcard x)

/-! ## The literals -/

/-- The word 0x48800000 denotes 2^18 = 262144. -/
theorem ofBits_262144 : Ideal.ofBits .f32 0x48800000#32 = ((262144 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3727C5AC (a small positive normal number) denotes a real number. -/
theorem isReal_eps : IsReal (Ideal.ofBits .f32 0x3727C5AC#32) := by
  rw [isReal_iff]
  constructor <;> simp [Ideal.ofBits, Ideal.ieee, -EReal.coe_mul]

/-! ## The column statistics -/

/-- For a real-valued 262144 × 64 matrix and a column d, with s0 the column's sum, s1 the sum of its squares and the
    divisor the word denoting 262144: s1 / 262144 − (s0 / 262144)² is the mean of the squared deviations of the column's
    entries from the column's mean s0 / 262144. -/
theorem col_variance (out : (⟨2, ![262144, 64]⟩ : Shape).Idx → EReal) (hout : ArrReal out) (d : Fin 64) :
    Ideal.div (Cert.Spec.colSq out d) (Ideal.ofBits .f32 0x48800000#32)
        - Ideal.div (Cert.Spec.colSum out d) (Ideal.ofBits .f32 0x48800000#32)
          * Ideal.div (Cert.Spec.colSum out d) (Ideal.ofBits .f32 0x48800000#32)
      = Ideal.div (∑ r : Fin 262144, (out (ix2 r d) - Ideal.div (Cert.Spec.colSum out d) (Ideal.ofBits .f32 0x48800000#32))
          * (out (ix2 r d) - Ideal.div (Cert.Spec.colSum out d) (Ideal.ofBits .f32 0x48800000#32)))
          (Ideal.ofBits .f32 0x48800000#32) := by
  choose x hx using fun r : Fin 262144 => hout (ix2 r d)
  rw [ofBits_262144]
  unfold Cert.Spec.colSq Cert.Spec.colSum
  simp only [hx]
  exact variance_identity (ι := Fin 262144) 262144 (by norm_num) (by simp) x

end Cert.LibVariance

end
-- ==== Proof.NormBridge.lean ====
/-
  The reference's normalisation is the kernel's, entry by entry, on a real-valued array. Both compute, at row r and
  column d, max ((x − mean) · rsqrt (var + c) · g_d + b_d, 0) with mean the column's sum over 262144. They differ in the
  variance: the reference takes the mean of the squared deviations from the mean, the kernel the mean of the squares
  minus the square of the mean. For real data the two agree (the variance identity); the column's sum and sum of
  squares are the two rows of the statistics array, and the scale and shift reshaped to one row read the vector's entry.
-/
import proofs.«121788_j77799037600003_1_alg».proof.Proof.RefRun
import proofs.«121788_j77799037600003_1_alg».proof.Proof.RefNormApply
import proofs.«121788_j77799037600003_1_alg».proof.Proof.NormValue
import proofs.«121788_j77799037600003_1_alg».proof.Proof.Spec
import proofs.«121788_j77799037600003_1_alg».proof.Proof.LibReal
import proofs.«121788_j77799037600003_1_alg».proof.Proof.LibVariance
import Idealize.ShloMosaic.Lib.ValueIdx
import Idealize.ShloMosaic.Lib.ValueLayout

noncomputable section

open scoped BigOperators

namespace Cert.NormBridge

open Idealize.ShloMosaic Idealize.ShloMosaic.ValueIdx Cert.LibReal
open Cert.ReferenceIdeal.RefRun (colMean colVar refNorm refNorm_apply)
open Cert.KernelIdeal.NormValue (normG normElt)

/-- Row 0 of the statistics array is the column sums. -/
theorem stats_row0 (out : (⟨2, ![262144, 64]⟩ : Shape).Idx → EReal) (d : Fin 64) :
    Cert.Spec.statsG out (ix2 (0 : Fin 2) d) = Cert.Spec.colSum out d := by
  unfold Cert.Spec.statsG
  exact if_pos rfl

/-- Row 1 of the statistics array is the column sums of squares. -/
theorem stats_row1 (out : (⟨2, ![262144, 64]⟩ : Shape).Idx → EReal) (d : Fin 64) :
    Cert.Spec.statsG out (ix2 (1 : Fin 2) d) = Cert.Spec.colSq out d := by
  unfold Cert.Spec.statsG
  exact if_neg (by show ¬ ((1 : Fin 2).val = 0); decide)

/-- The kernel's result function at row r and column d, from the entry, the column's two statistics, scale and shift. -/
theorem normG_apply (x : (⟨2, ![262144, 64]⟩ : Shape).Idx → EReal) (s : (⟨2, ![2, 64]⟩ : Shape).Idx → EReal)
    (g b : (⟨2, ![1, 64]⟩ : Shape).Idx → EReal) (r : Fin 262144) (d : Fin 64) :
    normG x s g b (ix2 r d)
      = normElt (x (ix2 r d)) (s (ix2 (0 : Fin 2) d)) (s (ix2 (1 : Fin 2) d)) (g (ix2 (0 : Fin 1) d)) (b (ix2 (0 : Fin 1) d)) :=
  rfl

/-- The reference's column mean — zero plus the column's sum, over 262144 — is the column sum over the word denoting
    262144. -/
theorem colMean_eq (out : (⟨2, ![262144, 64]⟩ : Shape).Idx → EReal) (d : Fin 64) :
    colMean out d = Ideal.div (Cert.Spec.colSum out d) (Ideal.ofBits .f32 0x48800000#32) := by
  unfold colMean Cert.Spec.colSum
  rw [zero_add, Cert.LibVariance.ofBits_262144]

/-- For a real-valued array the reference's column variance — the mean of the squared deviations from the mean — is the
    mean of the squares minus the square of the mean. -/
theorem colVar_eq (out : (⟨2, ![262144, 64]⟩ : Shape).Idx → EReal) (hout : ArrReal out) (d : Fin 64) :
    colVar out d = Ideal.div (Cert.Spec.colSq out d) (Ideal.ofBits .f32 0x48800000#32)
      - Ideal.div (Cert.Spec.colSum out d) (Ideal.ofBits .f32 0x48800000#32)
        * Ideal.div (Cert.Spec.colSum out d) (Ideal.ofBits .f32 0x48800000#32) := by
  unfold colVar
  rw [zero_add, ← Cert.LibVariance.ofBits_262144]
  simp only [colMean_eq]
  exact (Cert.LibVariance.col_variance out hout d).symm

/-- THE BRIDGE: on a real-valued array the reference's batch normalisation and rectifier is the kernel's result function
    of the array, its statistics array, and the scale and shift as one-row matrices. -/
theorem norm_eq (out : FVec Ideal Cert.ReferenceIdeal.S262144x64 .f32) (g b : FVec Ideal Cert.ReferenceIdeal.S64 .f32)
    (hout : Cert.LibReal.ArrReal out) :
    Cert.ReferenceIdeal.RefRun.refNorm (F := Ideal) out g b
      = Cert.KernelIdeal.NormValue.normG out (Cert.Spec.statsG out)
          (shapeCast Cert.KernelIdeal.S1x64 g Cert.KernelIdeal.Gen.shapeCasts_S64_S1x64)
          (shapeCast Cert.KernelIdeal.S1x64 b Cert.KernelIdeal.Gen.shapeCasts_S64_S1x64) := by
  funext i
  obtain ⟨r, d, rfl⟩ : ∃ (r : Fin 262144) (d : Fin 64), i = ix2 r d := ⟨i 0, i 1, eq_ix2 i⟩
  rw [refNorm_apply, normG_apply, stats_row0, stats_row1, shapeCast_a_1a_apply, shapeCast_a_1a_apply, colMean_eq,
    colVar_eq out hout]
  unfold normElt
  rw [Ideal.ofBits_zero_f32]

end Cert.NormBridge

end
-- ==== Proof.PreReal.lean ====
/-
  From the precondition to real-valued inputs. The precondition says of each float input that the absolute value of
  every entry is below +infinity; an extended real whose absolute value is below +infinity is neither infinity, that is,
  a real number.
-/
import proofs.«121788_j77799037600003_1_alg».proof.Pre_finite_inputs
import proofs.«121788_j77799037600003_1_alg».proof.Proof.Gen.Pre_finite_inputs
import proofs.«121788_j77799037600003_1_alg».proof.Proof.LibReal
import Idealize.ShloMosaic.Lib.ReduceAll
import Idealize.ShloMosaic.Lib.ValueIdx

noncomputable section

namespace Cert.PreReal

open Idealize.ShloMosaic Idealize.ShloMosaic.ValueIdx Cert.LibReal Cert.Pre_finite_inputs

/-- The scalar shape has one index. -/
instance : Subsingleton S_.Idx := ⟨fun a b => funext fun d => d.elim0⟩

/-- The word 0x7F800000 denotes +infinity. -/
theorem inf_bits : Ideal.ofBits .f32 0x7F800000#32 = ⊤ := by
  simp [Ideal.ofBits, Ideal.ieee]

/-- An extended real whose absolute value max x (−x) is below +infinity is a real number: the absolute value of either
    infinity is +infinity. -/
theorem isReal_of_abs_lt_inf (x : EReal)
    (h : Ideal.cmp .olt (max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- The precondition makes the four float inputs real-valued: it is the conjunction, over the four arrays, of
    "every entry's absolute value is below +infinity". -/
theorem pre_real [Cert.Pre_finite_inputs.Facts] (a0 : FVec Ideal S262144x64 .f32) (a1 : IVec S262144x4 32)
    (a2 : IVec S262144 32) (a3 : IVec S27x65536x2 32) (a4 : FVec Ideal S27x64x64 .f32) (a5 a6 : FVec Ideal S64 .f32)
    (h : Cert.Pre_finite_inputs.fn (F := Ideal) a0 a1 a2 a3 a4 a5 a6 = fun _ => 1#1) :
    (∀ i, IsReal (a0 i)) ∧ (∀ i, IsReal (a4 i)) ∧ (∀ i, IsReal (a5 i)) ∧ (∀ i, IsReal (a6 i)) := by
  have h0 := congrFun h ix0
  dsimp only [fn, fn_part1, andi] at h0
  rw [IntOp.andi_eq_one, IntOp.andi_eq_one, IntOp.andi_eq_one] at h0
  obtain ⟨⟨⟨h3, h7⟩, h12⟩, h17⟩ := h0
  refine ⟨fun i => ?_, fun i => ?_, fun i => ?_, fun i => ?_⟩
  · exact isReal_of_abs_lt_inf (a0 i) (Host.reduce_andi_all _ _ _ _ _ h3 i)
  · exact isReal_of_abs_lt_inf (a4 i) (Host.reduce_andi_all _ _ _ _ _ h7 i)
  · exact isReal_of_abs_lt_inf (a5 i) (Host.reduce_andi_all _ _ _ _ _ h12 i)
  · exact isReal_of_abs_lt_inf (a6 i) (Host.reduce_andi_all _ _ _ _ _ h17 i)

end Cert.PreReal

end
-- ==== Proof.lean ====
/-
  A sparse convolution with batch normalization: the kernel program against its reference, over the extended reals.

  Both programs gather the rows of the feature matrix that the first column of the index pairs names, multiply the
  gathered rows of each of the 27 offsets by that offset's 64 × 64 weight matrix, and add the products onto a zero
  array at the rows the second column names.  The reference forms the products in one batched contraction; the kernel
  program rounds the operands to a narrower format (the identity on extended reals) and forms them block by block
  in its first pipeline, each entry the same finite sum.  So both reach one array `out`.

  The reference then subtracts each column's mean, divides by the root of the column's mean squared deviation plus a
  small constant, scales, shifts and clips at zero.  The kernel program's second pipeline accumulates each column's
  sum and sum of squares over 32 blocks of rows, and its third pipeline normalizes with the variance written as the
  mean square minus the squared mean.  On real numbers the two variances are equal; on the extended reals they can
  differ at infinities, so the proof uses the precondition: finite features and weights make `out` real-valued,
  since a gather copies entries and the products and the scatter form finite sums.

  The three frames: the kernel programs' are the generated frame certificates; the reference's is its run with the
  result dropped.  The idealization rewrote nothing, so there is nothing to preserve.
-/
import proofs.«121788_j77799037600003_1_alg».proof.Defs
import proofs.«121788_j77799037600003_1_alg».proof.Proof.Gen.Kernel
import proofs.«121788_j77799037600003_1_alg».proof.Proof.Gen.Kernel.Frame
import proofs.«121788_j77799037600003_1_alg».proof.Proof.Gen.KernelIdeal
import proofs.«121788_j77799037600003_1_alg».proof.Proof.Gen.KernelIdeal.Frame
import proofs.«121788_j77799037600003_1_alg».proof.Proof.Gen.ReferenceIdeal
import proofs.«121788_j77799037600003_1_alg».proof.Proof.Gen.Pre_finite_inputs
import proofs.«121788_j77799037600003_1_alg».proof.Proof.KernelValue
import proofs.«121788_j77799037600003_1_alg».proof.Proof.KernelOut
import proofs.«121788_j77799037600003_1_alg».proof.Proof.RefRun
import proofs.«121788_j77799037600003_1_alg».proof.Proof.ConvBridge
import proofs.«121788_j77799037600003_1_alg».proof.Proof.NormBridge
import proofs.«121788_j77799037600003_1_alg».proof.Proof.PreReal
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read on extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On real-valued features and weights the reference's result is the kernel program's: the two convolution arrays
    are one array, real-valued, and on a real-valued array the two normalizations agree entry by entry. -/
theorem result_eq (x : FVec Ideal Cert.ReferenceIdeal.S262144x64 .f32) (kmap : IVec Cert.ReferenceIdeal.S27x65536x2 32)
    (w : FVec Ideal Cert.ReferenceIdeal.S27x64x64 .f32) (g b : FVec Ideal Cert.ReferenceIdeal.S64 .f32)
    (hx : Cert.LibReal.ArrReal x) (hw : Cert.LibReal.ArrReal w) :
    Cert.ReferenceIdeal.RefRun.refNorm (F := Ideal) (Cert.ReferenceIdeal.RefRun.refConv (F := Ideal) x kmap w) g b
      = Cert.KernelIdeal.KernelOut.kRes x kmap w g b := by
  rw [Cert.ConvBridge.conv_eq]
  exact Cert.NormBridge.norm_eq _ g b (Cert.KernelIdeal.KernelOut.kOut_real x kmap w hx hw)

/-- From memories agreeing on the arguments, finite where they are floats, both programs run and end with equal
    results. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, -, -, h3, h4, h5, h6⟩ := hagree c
  rw [h0, h3, h4, h5, h6]
  obtain ⟨r0, r4, -, -⟩ := Cert.PreReal.pre_real _ _ _ _ _ _ _ (hpre c)
  exact result_eq _ _ _ _ _ r0 r4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
